-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S50000x64 : Shape := ⟨2, ![50000, 64]⟩
abbrev S8192 : Shape := ⟨1, ![8192]⟩
abbrev S256x128 : Shape := ⟨2, ![256, 128]⟩
abbrev S128x64 : Shape := ⟨2, ![128, 64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S50000x64 : S_.BroadcastsInDim S50000x64 (![] : Fin 0 → Fin S50000x64.rank)
  reducesTo_S50000x64_S_d0_1 : S50000x64.ReducesTo [0, 1] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_arg6 : FVec F S128x64 .f32) (main_arg7 : FVec F S128x64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  main_v28

def fn {F : FTy → Type} [FloatOps F] (main_arg0 : FVec F S50000x256 .f32) (main_arg1 : IVec S2x800000 32) (main_arg2 : FVec F S800000 .f32) (main_arg3 : FVec F S50000x64 .f32) (main_arg4 : IVec S8192 32) (main_arg5 : FVec F S256x128 .f32) (main_arg6 : FVec F S128x64 .f32) (main_arg7 : FVec F S128x64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg6 main_arg7 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S50000x64 : Shape := ⟨2, ![50000, 64]⟩
abbrev S8192 : Shape := ⟨1, ![8192]⟩
abbrev S256x128 : Shape := ⟨2, ![256, 128]⟩
abbrev S128x64 : Shape := ⟨2, ![128, 64]⟩
abbrev S50000x128 : Shape := ⟨2, ![50000, 128]⟩
abbrev S5000x256 : Shape := ⟨2, ![5000, 256]⟩
abbrev S5000x128 : Shape := ⟨2, ![5000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S128x128 : Shape := ⟨2, ![128, 128]⟩
abbrev S8192x1 : Shape := ⟨2, ![8192, 1]⟩
abbrev S8192x64 : Shape := ⟨2, ![8192, 64]⟩
abbrev S64x8192 : Shape := ⟨2, ![64, 8192]⟩
abbrev S8192x8192 : Shape := ⟨2, ![8192, 8192]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 91
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S8192, .i32⟩
  | .hbm, ⟨5, _⟩ => ⟨S256x128, .f32⟩
  | .hbm, ⟨6, _⟩ => ⟨S128x64, .f32⟩
  | .hbm, ⟨7, _⟩ => ⟨S128x64, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S128x128, .f32⟩
  | .hbm, ⟨30, _⟩ => ⟨S50000x128, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x128, .f32⟩
  | .hbm, ⟨44, _⟩ => ⟨S800000x1, .f32⟩
  | .hbm, ⟨45, _⟩ => ⟨S800000x128, .f32⟩
  | .hbm, ⟨46, _⟩ => ⟨S800000x128, .f32⟩
  | .hbm, ⟨47, _⟩ => ⟨S_, .f32⟩
  | .hbm, ⟨48, _⟩ => ⟨S50000x128, .f32⟩
  | .hbm, ⟨49, _⟩ => ⟨S800000x1, .i32⟩
  | .hbm, ⟨50, _⟩ => ⟨S50000x128, .f32⟩
  | .hbm, ⟨51, _⟩ => ⟨S50000x64, .f32⟩
  | .hbm, ⟨52, _⟩ => ⟨S50000x64, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S8192x64, .f32⟩
  | .hbm, ⟨62, _⟩ => ⟨S_, .f32⟩
  | .hbm, ⟨63, _⟩ => ⟨S8192x64, .f32⟩
  | .hbm, ⟨64, _⟩ => ⟨S8192x64, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x64, .f32⟩
  | .hbm, ⟨74, _⟩ => ⟨S_, .f32⟩
  | .hbm, ⟨75, _⟩ => ⟨S8192x64, .f32⟩
  | .hbm, ⟨76, _⟩ => ⟨S8192x64, .f32⟩
  | .hbm, ⟨77, _⟩ => ⟨S_, .i32⟩
  | .hbm, ⟨78, _⟩ => ⟨S8192, .i32⟩
  | .hbm, ⟨79, _⟩ => ⟨S8192, .i1⟩
  | .hbm, ⟨80, _⟩ => ⟨S_, .i32⟩
  | .hbm, ⟨81, _⟩ => ⟨S8192, .i32⟩
  | .hbm, ⟨82, _⟩ => ⟨S8192, .i32⟩
  | .hbm, ⟨83, _⟩ => ⟨S8192, .i32⟩
  | .hbm, ⟨84, _⟩ => ⟨S8192x1, .i32⟩
  | .hbm, ⟨85, _⟩ => ⟨S8192x64, .f32⟩
  | .hbm, ⟨86, _⟩ => ⟨S8192x64, .f32⟩
  | .hbm, ⟨87, _⟩ => ⟨S8192x64, .f32⟩
  | .hbm, ⟨88, _⟩ => ⟨S8192x64, .f32⟩
  | .hbm, ⟨89, _⟩ => ⟨S64x8192, .f32⟩
  | .hbm, ⟨90, _⟩ => ⟨S8192x8192, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S1024x64, .f32⟩
  | .local _ .vmem, ⟨11, _⟩ => ⟨S1024x64, .f32⟩
  | .local _ .vmem, ⟨12, _⟩ => ⟨S64x1024, .f32⟩
  | .local _ .vmem, ⟨13, _⟩ => ⟨S64x1024, .f32⟩
  | .local _ .vmem, ⟨14, _⟩ => ⟨S1024x1024, .f32⟩
  | .local _ .vmem, ⟨15, _⟩ => ⟨S1024x1024, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_c_2 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_4 : Ref sig .tc := ⟨.hbm, 53, rfl⟩
abbrev main_v39 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_c_6 : Ref sig .tc := ⟨.hbm, 65, rfl⟩
abbrev main_v47 : Ref sig .tc := ⟨.hbm, 66, rfl⟩
abbrev main_v48 : Ref sig .tc := ⟨.hbm, 67, rfl⟩
abbrev main_c_7 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_call1_cst : Ref sig .tc := ⟨.hbm, 74, rfl⟩
abbrev main_call1_v0 : Ref sig .tc := ⟨.hbm, 75, rfl⟩
abbrev main_v54 : Ref sig .tc := ⟨.hbm, 76, rfl⟩
abbrev main_c_8 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S128x64_S128x64_S128x128_d1 : Shape.Concatenates [S128x64, S128x64] S128x128 1
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S50000x128_S50000x64_0_0 : S50000x128.Slices ![0, 0] S50000x64
  slices_S50000x128_S50000x64_0_64 : S50000x128.Slices ![0, 64] S50000x64
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  transposes_S8192x64_S64x8192_1_0 : S8192x64.Transposes [1, 0] S64x8192
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1024x1024_S1024x1024_0_0 : ∀ a, (![0, 0] : Fin 2 → Nat) a + S1024x1024.size a ≤ S1024x1024.size a
  h_S1024x1024 : 0 < S1024x1024.numel
  dot_S5000x256_S256x128_S5000x128_1_0_0_1_n_n_wf : DotDims.WF S5000x256 S256x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x64_S8192x1_S8192x64_1_0_n_n_0_1_164_wf : GatherDims.WF S50000x64 S8192x1 S8192x64 [1] [0] [] [0] [] 1 ![1, 64]
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S8192x64.size a
  hwx2_0 : ∀ i : grid2.Coords, EltTy.bits .f32 = 32 ∨ (Rect.block (s := S8192x64) S1024x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x8192.size a
  hwx2_1 : ∀ i : grid2.Coords, EltTy.bits .f32 = 32 ∨ (Rect.block (s := S64x8192) S64x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S8192x8192.size a
  hwx2_2 : ∀ i : grid2.Coords, EltTy.bits .f32 = 32 ∨ (Rect.block (s := S8192x8192) S1024x1024.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v64) S1024x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S1024x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S50000x64 : Shape := ⟨2, ![50000, 64]⟩
abbrev S8192 : Shape := ⟨1, ![8192]⟩
abbrev S256x128 : Shape := ⟨2, ![256, 128]⟩
abbrev S128x64 : Shape := ⟨2, ![128, 64]⟩
abbrev S50000x128 : Shape := ⟨2, ![50000, 128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S800000x64 : Shape := ⟨2, ![800000, 64]⟩
abbrev S8192x1 : Shape := ⟨2, ![8192, 1]⟩
abbrev S8192x64 : Shape := ⟨2, ![8192, 64]⟩
abbrev S64x8192 : Shape := ⟨2, ![64, 8192]⟩
abbrev S8192x8192 : Shape := ⟨2, ![8192, 8192]⟩

abbrev nBuf : Space → Nat
  | .hbm => 91
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S50000x64, .f32⟩
  | .hbm, ⟨4, _⟩ => ⟨S8192, .i32⟩
  | .hbm, ⟨5, _⟩ => ⟨S256x128, .f32⟩
  | .hbm, ⟨6, _⟩ => ⟨S128x64, .f32⟩
  | .hbm, ⟨7, _⟩ => ⟨S128x64, .f32⟩
  | .hbm, ⟨8, _⟩ => ⟨S50000x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x1, .f32⟩
  | .hbm, ⟨23, _⟩ => ⟨S800000x128, .f32⟩
  | .hbm, ⟨24, _⟩ => ⟨S800000x128, .f32⟩
  | .hbm, ⟨25, _⟩ => ⟨S_, .f32⟩
  | .hbm, ⟨26, _⟩ => ⟨S50000x128, .f32⟩
  | .hbm, ⟨27, _⟩ => ⟨S800000x1, .i32⟩
  | .hbm, ⟨28, _⟩ => ⟨S50000x128, .f32⟩
  | .hbm, ⟨29, _⟩ => ⟨S50000x64, .f32⟩
  | .hbm, ⟨30, _⟩ => ⟨S1x800000, .i32⟩
  | .hbm, ⟨31, _⟩ => ⟨S800000, .i32⟩
  | .hbm, ⟨32, _⟩ => ⟨S1x800000, .i32⟩
  | .hbm, ⟨33, _⟩ => ⟨S800000, .i32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x64, .f32⟩
  | .hbm, ⟨43, _⟩ => ⟨S800000x1, .f32⟩
  | .hbm, ⟨44, _⟩ => ⟨S800000x64, .f32⟩
  | .hbm, ⟨45, _⟩ => ⟨S800000x64, .f32⟩
  | .hbm, ⟨46, _⟩ => ⟨S_, .f32⟩
  | .hbm, ⟨47, _⟩ => ⟨S50000x64, .f32⟩
  | .hbm, ⟨48, _⟩ => ⟨S800000x1, .i32⟩
  | .hbm, ⟨49, _⟩ => ⟨S50000x64, .f32⟩
  | .hbm, ⟨50, _⟩ => ⟨S_, .f32⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S1x800000, .i32⟩
  | .hbm, ⟨55, _⟩ => ⟨S800000, .i32⟩
  | .hbm, ⟨56, _⟩ => ⟨S1x800000, .i32⟩
  | .hbm, ⟨57, _⟩ => ⟨S800000, .i32⟩
  | .hbm, ⟨58, _⟩ => ⟨S_, .i32⟩
  | .hbm, ⟨59, _⟩ => ⟨S800000, .i32⟩
  | .hbm, ⟨60, _⟩ => ⟨S800000, .i1⟩
  | .hbm, ⟨61, _⟩ => ⟨S_, .i32⟩
  | .hbm, ⟨62, _⟩ => ⟨S800000, .i32⟩
  | .hbm, ⟨63, _⟩ => ⟨S800000, .i32⟩
  | .hbm, ⟨64, _⟩ => ⟨S800000, .i32⟩
  | .hbm, ⟨65, _⟩ => ⟨S800000x1, .i32⟩
  | .hbm, ⟨66, _⟩ => ⟨S800000x64, .f32⟩
  | .hbm, ⟨67, _⟩ => ⟨S800000x1, .f32⟩
  | .hbm, ⟨68, _⟩ => ⟨S800000x64, .f32⟩
  | .hbm, ⟨69, _⟩ => ⟨S800000x64, .f32⟩
  | .hbm, ⟨70, _⟩ => ⟨S_, .f32⟩
  | .hbm, ⟨71, _⟩ => ⟨S50000x64, .f32⟩
  | .hbm, ⟨72, _⟩ => ⟨S800000x1, .i32⟩
  | .hbm, ⟨73, _⟩ => ⟨S50000x64, .f32⟩
  | .hbm, ⟨74, _⟩ => ⟨S_, .f32⟩
  | .hbm, ⟨75, _⟩ => ⟨S50000x64, .f32⟩
  | .hbm, ⟨76, _⟩ => ⟨S50000x64, .f32⟩
  | .hbm, ⟨77, _⟩ => ⟨S50000x64, .f32⟩
  | .hbm, ⟨78, _⟩ => ⟨S50000x64, .f32⟩
  | .hbm, ⟨79, _⟩ => ⟨S50000x64, .f32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S8192x64, .f32⟩
  | .hbm, ⟨89, _⟩ => ⟨S64x8192, .f32⟩
  | .hbm, ⟨90, _⟩ => ⟨S8192x8192, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_4 : Ref sig .tc := ⟨.hbm, 58, rfl⟩
abbrev main_v42 : Ref sig .tc := ⟨.hbm, 59, rfl⟩
abbrev main_v43 : Ref sig .tc := ⟨.hbm, 60, rfl⟩
abbrev main_c_5 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_6 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_cst : Ref sig .tc := ⟨.hbm, 74, rfl⟩
abbrev main_call1_v0 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_c_7 : Ref sig .tc := ⟨.hbm, 80, rfl⟩
abbrev main_v59 : Ref sig .tc := ⟨.hbm, 81, rfl⟩
abbrev main_v60 : Ref sig .tc := ⟨.hbm, 82, rfl⟩
abbrev main_c_8 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S8192 : S_.BroadcastsInDim S8192 (![] : Fin 0 → Fin S8192.rank)
  bcast_S8192_S8192x1_0 : S8192.BroadcastsInDim S8192x1 (![0] : Fin 1 → Fin S8192x1.rank)
  transposes_S8192x64_S64x8192_1_0 : S8192x64.Transposes [1, 0] S64x8192
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S8192x1_S8192x64_1_0_n_n_0_1_164_wf : GatherDims.WF S50000x64 S8192x1 S8192x64 [1] [0] [] [0] [] 1 ![1, 64]
  dot_S8192x64_S64x8192_S8192x8192_1_0_0_1_n_n_wf : DotDims.WF S8192x64 S64x8192 S8192x8192 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S8192x1_S8192x64_1_0_n_n_0_1_164 : GatherDims S50000x64 S8192x1 S8192x64 where
  offsetDims := [1]
  collapsedSliceDims := [0]
  operandBatchingDims := []
  startIndicesBatchingDims := []
  startIndexMap := [0]
  indexVectorDim := 1
  sliceSizes := ![1, 64]
  wf := gather_S50000x64_S8192x1_S8192x64_1_0_n_n_0_1_164_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf

class Facts : Prop extends Facts₀ where

variable [Facts]
-- ==== Proof.KernelRun.lean ====
/-
  The idealized kernel program's run, with the contents of every buffer at its end.

  The program is three tiled matrix products among stretches of host operations. Its generated frame certificate
  walks the buffer contents from the launch memory through every stretch and region to the last boundary, `Gen.W9`,
  and proves that every weakly fair execution terminates without a fault; there it keeps of the last boundary only
  that the argument arrays are as launched. Here the same run is stated with its whole conclusion: at the end EVERY
  buffer the TensorCore holds outside a region has the last boundary's contents — in particular the result array —
  so that the value of the result can be read off the fold.
-/
import proofs.«148251_j31490700214327_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and at its end every buffer the
    TensorCore holds between regions has the contents of the last boundary of the fold through the program. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h => h)

/-- The same run, keeping of its end the result array — at the last boundary's contents — and the eight argument
    arrays, which no host operation and no region writes. -/
theorem run_result : θ_run defs (onTc (τ := τ) (main (F := F))) ⟨m, fun _ => 0, ρ⟩ (fun r => ∀ c : Dev nD,
      r.2.mem ((c.tc : Thread nD τ).loc main_v66) = W9 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_uc main_v66 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c),
     (h c _ (mem_uc main_arg6 (by decide))).trans (W9_main_arg6 m ρ c),
     (h c _ (mem_uc main_arg7 (by decide))).trans (W9_main_arg7 m ρ c)⟩) (run_buffers m ρ)

end Cert.KernelIdeal.RunValue

end
-- ==== Proof.KernelHost.lean ====
/-
  The idealized kernel program's host operations between its three matrix-product regions, as pure functions.

  A graph-convolution step is "gather the rows of a node table at the edges' sources, scale each by its edge weight,
  and add it into the row of the edge's destination": `spmm`. The program applies it twice to 128-column tables —
  to the first product, and to the second product, whose right factor is the two 128×64 weight matrices side by side
  (`w23`) — and then, only at the batch of nodes it is asked for, forms noise · exp(relu(second half)) + relu(first half)
  of the second step's columns (`zb`) and its transpose. Each definition is the printed operations' own composition;
  the theorems say that the program's stretches of host operations compute them, from whatever the buffers hold when a
  stretch is entered.
-/
import proofs.«148251_j31490700214327_2_alg».proof.Proof.Gen.KernelIdeal.Launch
import Idealize.ShloMosaic.Lib.StableHlo.Run

noncomputable section

namespace Cert.KernelIdeal.HostValue

open Cert.KernelIdeal Cert.KernelIdeal.Gen Idealize.ShloMosaic Idealize.ShloMosaic.TcCoe Idealize.SL.Sem
open Idealize.ShloMosaic.StableHlo

variable {F : FTy → Type} [FloatOps F]

/-- The edges' source nodes as a column of start indices, a negative index counted from the end of the table. -/
def srcCol (x1 : (⟨S2x800000, .i32⟩ : BufTy).Contents (Elt F)) : (⟨S800000x1, .i32⟩ : BufTy).Contents (Elt F) :=
  broadcastInDim S800000x1 ![0] bcast_S800000_S800000x1_0
    (select
      (cmpi .slt (shapeCast S800000 (extractStridedSlice S1x800000 ![0, 0] x1 slices_S2x800000_S1x800000_0_0) shapeCasts_S1x800000_S800000)
        (broadcastInDim S800000 ![] bcast_S_S800000 (constantI S_ 32 0#32)))
      (addi (shapeCast S800000 (extractStridedSlice S1x800000 ![0, 0] x1 slices_S2x800000_S1x800000_0_0) shapeCasts_S1x800000_S800000)
        (broadcastInDim S800000 ![] bcast_S_S800000 (constantI S_ 32 50000#32)))
      (shapeCast S800000 (extractStridedSlice S1x800000 ![0, 0] x1 slices_S2x800000_S1x800000_0_0) shapeCasts_S1x800000_S800000))

/-- The edges' destination nodes as a column of scatter indices, as given. -/
def dstCol (x1 : (⟨S2x800000, .i32⟩ : BufTy).Contents (Elt F)) : (⟨S800000x1, .i32⟩ : BufTy).Contents (Elt F) :=
  broadcastInDim S800000x1 ![0] bcast_S800000_S800000x1_0
    (shapeCast S800000 (extractStridedSlice S1x800000 ![1, 0] x1 slices_S2x800000_S1x800000_1_0) shapeCasts_S1x800000_S800000)

/-- The edge weights repeated along 128 columns. -/
def wCols (x2 : (⟨S800000, .f32⟩ : BufTy).Contents (Elt F)) : (⟨S800000x128, .f32⟩ : BufTy).Contents (Elt F) :=
  broadcastInDim S800000x128 ![0, 1] bcast_S800000x1_S800000x128_0_1 (broadcastInDim S800000x1 ![0] bcast_S800000_S800000x1_0 x2)

/-- One message-passing step on a 128-column node table: every edge adds its weight times its source's row into its
    destination's row of a table of zeros. -/
def spmm (x1 : (⟨S2x800000, .i32⟩ : BufTy).Contents (Elt F)) (x2 : (⟨S800000, .f32⟩ : BufTy).Contents (Elt F))
    (X : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol x1)
    (mulf (Host.gather gather_S50000x128_S800000x1_S800000x128_1_0_n_n_0_1_1128 X (srcCol x1)) (wCols x2))

/-- The two 128×64 weight matrices side by side. -/
def w23 (x6 x7 : (⟨S128x64, .f32⟩ : BufTy).Contents (Elt F)) : (⟨S128x128, .f32⟩ : BufTy).Contents (Elt F) :=
  concatenate S128x128 1 [⟨S128x64, x6⟩, ⟨S128x64, x7⟩] concatenates_S128x64_S128x64_S128x128_d1

/-- The batch's nodes as a column of start indices, a negative index counted from the end of the table. -/
def batchCol (x4 : (⟨S8192, .i32⟩ : BufTy).Contents (Elt F)) : (⟨S8192x1, .i32⟩ : BufTy).Contents (Elt F) :=
  broadcastInDim S8192x1 ![0] bcast_S8192_S8192x1_0
    (select (cmpi .slt x4 (broadcastInDim S8192 ![] bcast_S_S8192 (constantI S_ 32 0#32)))
      (addi x4 (broadcastInDim S8192 ![] bcast_S_S8192 (constantI S_ 32 50000#32))) x4)

/-- The rows of a 64-column node table at the batch's nodes. -/
def takeRows (X : (⟨S50000x64, .f32⟩ : BufTy).Contents (Elt F)) (x4 : (⟨S8192, .i32⟩ : BufTy).Contents (Elt F)) :
    (⟨S8192x64, .f32⟩ : BufTy).Contents (Elt F) :=
  Host.gather gather_S50000x64_S8192x1_S8192x64_1_0_n_n_0_1_164 X (batchCol x4)

/-- The batch-sized table of zeros a rectifier compares with. -/
def zeroRows : (⟨S8192x64, .f32⟩ : BufTy).Contents (Elt F) :=
  broadcastInDim S8192x64 ![] bcast_S_S8192x64 (constant S_ .f32 0x00000000#32)

/-- The batch's latent rows: noise · exp(relu(columns 64…127)) + relu(columns 0…63) of the second step's table, each
    read at the batch's nodes first. -/
def zb (x3 : (⟨S50000x64, .f32⟩ : BufTy).Contents (Elt F)) (x4 : (⟨S8192, .i32⟩ : BufTy).Contents (Elt F))
    (C : (⟨S50000x128, .f32⟩ : BufTy).Contents (Elt F)) : (⟨S8192x64, .f32⟩ : BufTy).Contents (Elt F) :=
  addf
    (mulf (takeRows x3 x4)
      (Host.exp (maximumf (takeRows (extractStridedSlice S50000x64 ![0, 64] C slices_S50000x128_S50000x64_0_64) x4) zeroRows)))
    (maximumf (takeRows (extractStridedSlice S50000x64 ![0, 0] C slices_S50000x128_S50000x64_0_0) x4) zeroRows)

/-- Their transpose. -/
def zbT (Z : (⟨S8192x64, .f32⟩ : BufTy).Contents (Elt F)) : (⟨S64x8192, .f32⟩ : BufTy).Contents (Elt F) :=
  transpose S64x8192 [1, 0] Z transposes_S8192x64_S64x8192_1_0

variable (W : Valuation τ sig (Elt F))

/-! ## The stretch between the first and the second product -/

/-- It leaves the first message-passing step of the first product in the second product's left operand … -/
theorem after1_v17 : StableHlo.after (hostOps1 (F := F)) W (Proc.devRef .tc main_v17)
    = spmm (W (Proc.devRef .tc main_arg1)) (W (Proc.devRef .tc main_arg2)) (W (Proc.devRef .tc main_v0)) := by
  after_results_simp
  rfl

/-- … and the two weight matrices side by side in its right operand. -/
theorem after1_v18 : StableHlo.after (hostOps1 (F := F)) W (Proc.devRef .tc main_v18)
    = w23 (W (Proc.devRef .tc main_arg6)) (W (Proc.devRef .tc main_arg7)) := by
  after_results_simp
  rfl

/-- It writes none of the arguments the later stretches read. -/
theorem after1_arg1 : StableHlo.after (hostOps1 (F := F)) W (Proc.devRef .tc main_arg1) = W (Proc.devRef .tc main_arg1) := by
  after_results_simp
theorem after1_arg2 : StableHlo.after (hostOps1 (F := F)) W (Proc.devRef .tc main_arg2) = W (Proc.devRef .tc main_arg2) := by
  after_results_simp
theorem after1_arg3 : StableHlo.after (hostOps1 (F := F)) W (Proc.devRef .tc main_arg3) = W (Proc.devRef .tc main_arg3) := by
  after_results_simp
theorem after1_arg4 : StableHlo.after (hostOps1 (F := F)) W (Proc.devRef .tc main_arg4) = W (Proc.devRef .tc main_arg4) := by
  after_results_simp

/-! ## The stretches between the second and the third product -/

/-- They leave the batch's latent rows, formed from the second message-passing step of the second product, in the
    third product's left operand … -/
theorem after2_v64 : StableHlo.after (hostOps2_4 (F := F)) (StableHlo.after (hostOps2_3 (F := F)) (StableHlo.after (hostOps2_2 (F := F))
      (StableHlo.after (hostOps2_1 (F := F)) (StableHlo.after (hostOps2 (F := F)) W)))) (Proc.devRef .tc main_v64)
    = zb (W (Proc.devRef .tc main_arg3)) (W (Proc.devRef .tc main_arg4))
        (spmm (W (Proc.devRef .tc main_arg1)) (W (Proc.devRef .tc main_arg2)) (W (Proc.devRef .tc main_v19))) := by
  after_results_simp
  rfl

/-- … and their transpose in its right operand. -/
theorem after2_v65 : StableHlo.after (hostOps2_4 (F := F)) (StableHlo.after (hostOps2_3 (F := F)) (StableHlo.after (hostOps2_2 (F := F))
      (StableHlo.after (hostOps2_1 (F := F)) (StableHlo.after (hostOps2 (F := F)) W)))) (Proc.devRef .tc main_v65)
    = zbT (zb (W (Proc.devRef .tc main_arg3)) (W (Proc.devRef .tc main_arg4))
        (spmm (W (Proc.devRef .tc main_arg1)) (W (Proc.devRef .tc main_arg2)) (W (Proc.devRef .tc main_v19)))) := by
  after_results_simp
  rfl

end Cert.KernelIdeal.HostValue

end
-- ==== Proof.RefStages.lean ====
/-
  The reference program's stages in the vocabulary of the message-passing step.

  The reference computes the same graph-convolution steps as the kernel program, but keeps the two 64-column halves
  apart: after the first step (on 128 columns) it multiplies by each 128×64 weight matrix separately, runs one
  64-column message-passing step (`spmm64`) on each product, rectifies, forms noise · exp(·) + · on ALL nodes and only
  then reads the batch's rows. The definitions are the printed operations' own compositions, and each stage of the
  generated read-back is one of them by unfolding.
-/
import proofs.«148251_j31490700214327_2_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.TcCoe Idealize.SL.Sem

variable {F : FTy → Type} [FloatOps F]

/-- The edges' source nodes as a column of start indices, a negative index counted from the end of the table. -/
def srcCol (x1 : (⟨S2x800000, .i32⟩ : BufTy).Contents (Elt F)) : (⟨S800000x1, .i32⟩ : BufTy).Contents (Elt F) :=
  broadcastInDim S800000x1 ![0] bcast_S800000_S800000x1_0
    (select
      (cmpi .slt (shapeCast S800000 (extractStridedSlice S1x800000 ![0, 0] x1 slices_S2x800000_S1x800000_0_0) shapeCasts_S1x800000_S800000)
        (broadcastInDim S800000 ![] bcast_S_S800000 (constantI S_ 32 0#32)))
      (addi (shapeCast S800000 (extractStridedSlice S1x800000 ![0, 0] x1 slices_S2x800000_S1x800000_0_0) shapeCasts_S1x800000_S800000)
        (broadcastInDim S800000 ![] bcast_S_S800000 (constantI S_ 32 50000#32)))
      (shapeCast S800000 (extractStridedSlice S1x800000 ![0, 0] x1 slices_S2x800000_S1x800000_0_0) shapeCasts_S1x800000_S800000))

/-- The edges' destination nodes as a column of scatter indices, as given. -/
def dstCol (x1 : (⟨S2x800000, .i32⟩ : BufTy).Contents (Elt F)) : (⟨S800000x1, .i32⟩ : BufTy).Contents (Elt F) :=
  broadcastInDim S800000x1 ![0] bcast_S800000_S800000x1_0
    (shapeCast S800000 (extractStridedSlice S1x800000 ![1, 0] x1 slices_S2x800000_S1x800000_1_0) shapeCasts_S1x800000_S800000)

/-- The edge weights repeated along 128 columns … -/
def wCols (x2 : (⟨S800000, .f32⟩ : BufTy).Contents (Elt F)) : (⟨S800000x128, .f32⟩ : BufTy).Contents (Elt F) :=
  broadcastInDim S800000x128 ![0, 1] bcast_S800000x1_S800000x128_0_1 (broadcastInDim S800000x1 ![0] bcast_S800000_S800000x1_0 x2)
/-- … and along 64. -/
def wCols64 (x2 : (⟨S800000, .f32⟩ : BufTy).Contents (Elt F)) : (⟨S800000x64, .f32⟩ : BufTy).Contents (Elt F) :=
  broadcastInDim S800000x64 ![0, 1] bcast_S800000x1_S800000x64_0_1 (broadcastInDim S800000x1 ![0] bcast_S800000_S800000x1_0 x2)

/-- One message-passing step on a 128-column node table … -/
def spmm (x1 : (⟨S2x800000, .i32⟩ : BufTy).Contents (Elt F)) (x2 : (⟨S800000, .f32⟩ : BufTy).Contents (Elt F))
    (X : (⟨S50000x128, .f32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32)) (dstCol x1)
    (mulf (Host.gather gather_S50000x128_S800000x1_S800000x128_1_0_n_n_0_1_1128 X (srcCol x1)) (wCols x2))
/-- … and on a 64-column one. -/
def spmm64 (x1 : (⟨S2x800000, .i32⟩ : BufTy).Contents (Elt F)) (x2 : (⟨S800000, .f32⟩ : BufTy).Contents (Elt F))
    (X : (⟨S50000x64, .f32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstCol x1)
    (mulf (Host.gather gather_S50000x64_S800000x1_S800000x64_1_0_n_n_0_1_164 X (srcCol x1)) (wCols64 x2))

/-- The batch's nodes as a column of start indices, a negative index counted from the end of the table. -/
def batchCol (x4 : (⟨S8192, .i32⟩ : BufTy).Contents (Elt F)) : (⟨S8192x1, .i32⟩ : BufTy).Contents (Elt F) :=
  broadcastInDim S8192x1 ![0] bcast_S8192_S8192x1_0
    (select (cmpi .slt x4 (broadcastInDim S8192 ![] bcast_S_S8192 (constantI S_ 32 0#32)))
      (addi x4 (broadcastInDim S8192 ![] bcast_S_S8192 (constantI S_ 32 50000#32))) x4)

/-- The rows of a 64-column node table at the batch's nodes. -/
def takeRows (X : (⟨S50000x64, .f32⟩ : BufTy).Contents (Elt F)) (x4 : (⟨S8192, .i32⟩ : BufTy).Contents (Elt F)) :
    (⟨S8192x64, .f32⟩ : BufTy).Contents (Elt F) :=
  Host.gather gather_S50000x64_S8192x1_S8192x64_1_0_n_n_0_1_164 X (batchCol x4)

/-- The node-sized table of zeros a rectifier compares with. -/
def zeroNodes : (⟨S50000x64, .f32⟩ : BufTy).Contents (Elt F) :=
  broadcastInDim S50000x64 ![] bcast_S_S50000x64 (constant S_ .f32 0x00000000#32)

/-- Every node's latent row: noise · exp(relu(log-deviation)) + relu(mean). -/
def latent (x3 M L : (⟨S50000x64, .f32⟩ : BufTy).Contents (Elt F)) : (⟨S50000x64, .f32⟩ : BufTy).Contents (Elt F) :=
  addf (mulf x3 (Host.exp (maximumf L zeroNodes))) (maximumf M zeroNodes)

variable (x0 : (⟨S50000x256, .f32⟩ : BufTy).Contents (Elt F)) (x1 : (⟨S2x800000, .i32⟩ : BufTy).Contents (Elt F))
  (x2 : (⟨S800000, .f32⟩ : BufTy).Contents (Elt F)) (x3 : (⟨S50000x64, .f32⟩ : BufTy).Contents (Elt F))
  (x4 : (⟨S8192, .i32⟩ : BufTy).Contents (Elt F)) (x5 : (⟨S256x128, .f32⟩ : BufTy).Contents (Elt F))
  (x6 x7 : (⟨S128x64, .f32⟩ : BufTy).Contents (Elt F))

/-- The hidden layer is the first step of the first product. -/
theorem hidden_eq : val_main_v17 (F := F) x0 x1 x2 x5 = spmm x1 x2 (val_main_v0 (F := F) x0 x5) := rfl
/-- The mean before its rectifier is the 64-column step of the hidden layer times the first weight matrix … -/
theorem mean_eq : val_main_v35 (F := F) x0 x1 x2 x5 x6 = spmm64 x1 x2 (val_main_v18 (F := F) x0 x1 x2 x5 x6) := rfl
/-- … and the log-deviation that of the hidden layer times the second. -/
theorem logstd_eq : val_main_v54 (F := F) x0 x1 x2 x5 x7 = spmm64 x1 x2 (val_main_v37 (F := F) x0 x1 x2 x5 x7) := rfl
/-- The batch's rows are read from every node's latent row. -/
theorem batch_eq : val_main_v65 (F := F) x0 x1 x2 x3 x4 x5 x6 x7
    = takeRows (latent x3 (val_main_v35 (F := F) x0 x1 x2 x5 x6) (val_main_v54 (F := F) x0 x1 x2 x5 x7)) x4 := rfl

end Cert.ReferenceIdeal.RefValue

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.RegionValue0.lean ====
/-
  Region 0 read as a value: the output array after the region's write-backs is the matrix product of the region's two
  input arrays, as the region found them.

  The region cuts the 50000 rows of the left array into ten blocks of 5000 rows; at each block it multiplies the block
  by the whole right array and stores the 5000×128 result as the matching block of rows of the output. So what each
  point writes back is its block of ONE function of the two arrays — entry (r, j) is the sum over k of
  left (r, k) · right (k, j) — and the ten blocks fill the output, which therefore ends holding that function.
-/
import proofs.«148251_j31490700214327_2_alg».proof.Proof.Gen.KernelIdeal.Frame
import proofs.«148251_j31490700214327_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
private theorem hz : (![0, 0] : Fin 2 → Nat) = fun _ => 0 := funext fun a => by fin_cases a <;> rfl

/-- Multiplication of two extended reals, written so that a factor read off a buffer (whose element type is the
    extended reals only after unfolding) is taken at that type. -/
local notation:70 a:70 " *ₑ " b:71 => @HMul.hMul EReal EReal EReal _ a b

/-! ## Region 0: the 50000×256 array times the 256×128 array -/

/-- The product of a 50000×256 array and a 256×128 array: entry (r, j) is the sum over k of a (r, k) · b (k, j). -/
def prod0 (a : S50000x256.Idx → EReal) (b : S256x128.Idx → EReal) : S50000x128.Idx → EReal :=
  fun i => ∑ k : Fin 256, a (ix2 ⟨(i 0).val, idx2_lt0 i⟩ k) * b (ix2 k ⟨(i 1).val, idx2_lt1 i⟩)

/-- The product at an entry named by its coordinates. -/
theorem prod0_apply (a : S50000x256.Idx → EReal) (b : S256x128.Idx → EReal) (r : Fin 50000) (j : Fin 128) :
    prod0 a b (ix2 r j) = ∑ k : Fin 256, a (ix2 r k) * b (ix2 k j) := rfl

/-- The body's stored value at an entry: both casts are the identity on extended reals, and the matrix unit's
    product into the zero accumulator is the sum over the contracted axis. -/
theorem pay0_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) := by
  unfold k0_pay1
  exact Cert.LibMatmulNN.matmul_zero_apply' _ rfl rfl rfl rfl rfl rfl none _ _ p q

/-- The three index maps over the grid: the left operand's and the output's block row is the point, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t holds rows 5000·t … 5000·t + 4999 of the array. -/
theorem lhs0_apply (c : Dev nD) (t : Fin cfg0.N) (p : Fin 5000) (k : Fin 256) (i : S50000x256.Idx)
    (h0 : (i 0).val = t.val * 5000 + p.val) (h1 : (i 1).val = k.val) :
    (iblk0 V c 0 t : S5000x256.Idx → EReal) (ix2 p k) = (V c main_arg0 : S50000x256.Idx → EReal) i := by
  obtain ⟨e0, e1, -, -, -, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * p.val = (i 0).val; rw [e0, h0]; omega
  | ⟨1, _⟩ => show win0_0.index t (1 : Fin 2) * 256 + 1 * k.val = (i 1).val; rw [e1, h1]; omega

/-- The right operand's block at every point is the whole array. -/
theorem rhs0_apply (c : Dev nD) (t : Fin cfg0.N) (k : Fin 256) (q : Fin 128) (i : S256x128.Idx)
    (h0 : (i 0).val = k.val) (h1 : (i 1).val = q.val) :
    (iblk0 V c 1 t : S256x128.Idx → EReal) (ix2 k q) = (V c main_arg5 : S256x128.Idx → EReal) i := by
  obtain ⟨-, -, e2, e3, -, -⟩ := idx0 t
  unfold iblk0
  rw [View.read_apply]
  show V c main_arg5 _ = V c main_arg5 _
  congr 1
  funext a
  apply Fin.ext
  match a with
  | ⟨0, _⟩ => show win0_1.index t (0 : Fin 2) * 256 + 1 * k.val = (i 0).val; rw [e2, h0]; omega
  | ⟨1, _⟩ => show win0_1.index t (1 : Fin 2) * 128 + 1 * q.val = (i 1).val; rw [e3, h1]; omega

/-- What point t writes back is block t of the product of the two arrays as the region finds them. -/
theorem flushed0_eq (c : Dev nD) (t : Fin cfg0.N) :
    (dat0 (F := Ideal) V c).flushed 2 t
      = ((cfg0.win 2).blk t).view.read (Elt Ideal) (prod0 (V c main_arg0) (V c main_arg5)) := by
  show (cfg0.win 2).cut (grid0.coords t) ((dat0 (F := Ideal) V c).after 2 t) = _
  rw [after0_2]
  unfold out0_2
  rw [View.canon_unit_zero hz]
  simp only [View.ld_unit_zero (S := S5000x256) hz, View.ld_unit_zero (S := S256x128) hz]
  obtain ⟨-, -, -, -, e4, e5⟩ := idx0 t
  funext y
  obtain ⟨p, q, rfl⟩ : ∃ (p : Fin 5000) (q : Fin 128), y = ix2 p q := ⟨y 0, y 1, eq_ix2 (n0 := 5000) (n1 := 128) y⟩
  have hr : t.val * 5000 + p.val < 50000 := by
    have ht : t.val < 10 := lt_of_lt_of_eq t.isLt N_0
    omega
  show k0_pay1 (iblk0 V c 0 t) (iblk0 V c 1 t) (ix2 p q)
      = prod0 (V c main_arg0) (V c main_arg5) (((cfg0.win 2).blk t).view.emb (ix2 p q))
  have hi : ((cfg0.win 2).blk t).view.emb (ix2 p q) = (ix2 ⟨t.val * 5000 + p.val, hr⟩ q : S50000x128.Idx) := by
    funext a
    apply Fin.ext
    match a with
    | ⟨0, _⟩ => show win0_2.index t (0 : Fin 2) * 5000 + 1 * p.val = t.val * 5000 + p.val; rw [e4]; omega
    | ⟨1, _⟩ => show win0_2.index t (1 : Fin 2) * 128 + 1 * q.val = q.val; rw [e5]; omega
  rw [hi, prod0_apply, pay0_apply]
  refine Finset.sum_congr rfl fun k _ => ?_
  rw [lhs0_apply V c t p k (ix2 ⟨t.val * 5000 + p.val, hr⟩ k) rfl rfl, rhs0_apply V c t k q (ix2 k q) rfl rfl]

/-- Row r of the output is in the block of point r / 5000: the output's blocks fill the array. -/
theorem cover0 (i : S50000x128.Idx) :
    ∃ t : Fin cfg0.N, (cfg0.win 2).flush t = true ∧ i ∈ ((cfg0.win 2).blk t).view.set := by
  have h0 : (i 0).val < 50000 := (i 0).isLt
  have h1 : (i 1).val < 128 := (i 1).isLt
  have ht : (i 0).val / 5000 < cfg0.N := by rw [show cfg0.N = 10 from N_0]; omega
  refine ⟨⟨(i 0).val / 5000, ht⟩, flush0_2 _, ?_⟩
  obtain ⟨-, -, -, -, e4, e5⟩ := idx0 ⟨(i 0).val / 5000, ht⟩
  show i ∈ ((View.whole main_v0).slice (win0_2.rect ⟨(i 0).val / 5000, ht⟩)).set
  rw [View.set_slice_whole, Rect.mem_set_unit]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]; omega

/-- The output array after the region's write-backs is the product of the two input arrays as the region found
    them. -/
theorem final0 (c : Dev nD) :
    (dat0 (F := Ideal) V c).arrAt 2 cfg0.N = prod0 (V c main_arg0) (V c main_arg5) :=
  (dat0 (F := Ideal) V c).arrAt_eq_of_cover 2 (prod0 (V c main_arg0) (V c main_arg5))
    (fun t _ => flushed0_eq V c t) cover0

/-- The same at an entry: the textbook sum. -/
theorem final0_apply (c : Dev nD) (r : Fin 50000) (j : Fin 128) :
    (dat0 (F := Ideal) V c).arrAt 2 cfg0.N (ix2 r j)
      = ∑ k : Fin 256, (V c main_arg0 (ix2 r k) *ₑ V c main_arg5 (ix2 k j)) := by
  rw [final0]
  rfl

end Cert.KernelIdeal.RegionValue

end
-- ==== Proof.RegionValue1.lean ====
/-
  Region 1 read as a value: the output array after the region's write-backs is the matrix product of the region's two
  input arrays, as the region found them.

  The region cuts the 50000 rows of the left array into ten blocks of 5000 rows; at each block it multiplies the block
  by the whole right array and stores the 5000×128 result as the matching block of rows of the output. So what each
  point writes back is its block of ONE function of the two arrays — entry (r, j) is the sum over k of
  left (r, k) · right (k, j) — and the ten blocks fill the output, which therefore ends holding that function.
-/
import proofs.«148251_j31490700214327_2_alg».proof.Proof.Gen.KernelIdeal.Frame
import proofs.«148251_j31490700214327_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The zero offsets of a whole-buffer access, as a constant function. -/
private theorem hz : (![0, 0] : Fin 2 → Nat) = fun _ => 0 := funext fun a => by fin_cases a <;> rfl

/-- Multiplication of two extended reals, written so that a factor read off a buffer (whose element type is the
    extended reals only after unfolding) is taken at that type. -/
local notation:70 a:70 " *ₑ " b:71 => @HMul.hMul EReal EReal EReal _ a b

/-! ## Region 1: the 50000×128 array times the 128×128 array -/

/-- The product of a 50000×128 array and a 128×128 array: entry (r, j) is the sum over k of a (r, k) · b (k, j). -/
def prod1 (a : S50000x128.Idx → EReal) (b : S128x128.Idx → EReal) : S50000x128.Idx → EReal :=
  fun i => ∑ k : Fin 128, a (ix2 ⟨(i 0).val, idx2_lt0 i⟩ k) * b (ix2 k ⟨(i 1).val, idx2_lt1 i⟩)

/-- The product at an entry named by its coordinates. -/
theorem prod1_apply (a : S50000x128.Idx → EReal) (b : S128x128.Idx → EReal) (r : Fin 50000) (j : Fin 128) :
    prod1 a b (ix2 r j) = ∑ k : Fin 128, a (ix2 r k) * b (ix2 k j) := rfl

/-- The body's stored value at an entry: a reshape to the same shape and the casts are the identity on the values, and
    the matrix unit's product into the zero accumulator is the sum over the contracted axis. -/
theorem pay1_apply (x0 : Vec Ideal S5000x128 .f32) (x1 : Vec Ideal S128x128 .f32) (p : Fin 5000) (q : Fin 128) :
    k1_pay1 x0 x1 (ix2 p q) = ∑ k : Fin 128, x0 (ix2 p k) * x1 (ix2 k q) := by
  unfold k1_pay1
  refine (Cert.LibMatmulNN.matmul_zero_apply' _ rfl rfl rfl rfl rfl rfl none _ _ p q).trans ?_
  refine Finset.sum_congr rfl fun k _ => ?_
  rw [shapeCast_self, shapeCast_self]
  rfl

/-- The three index maps over the grid: the left operand's and the output's block row is the point, every other
    block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t holds rows 5000·t … 5000·t + 4999 of the array. -/
theorem lhs1_apply (c : Dev nD) (t : Fin cfg1.N) (p : Fin 5000) (k : Fin 128) (i : S50000x128.Idx)
    (h0 : (i 0).val = t.val * 5000 + p.val) (h1 : (i 1).val = k.val) :
    (iblk1 V c 0 t : S5000x128.Idx → EReal) (ix2 p k) = (V c main_v17 : S50000x128.Idx → EReal) i := by
  obtain ⟨e0, e1, -, -, -, -⟩ := idx1 t
  unfold iblk1
  rw [View.read_apply]
  show V c main_v17 _ = V c main_v17 _
  congr 1
  funext a
  apply Fin.ext
  match a with
  | ⟨0, _⟩ => show win1_0.index t (0 : Fin 2) * 5000 + 1 * p.val = (i 0).val; rw [e0, h0]; omega
  | ⟨1, _⟩ => show win1_0.index t (1 : Fin 2) * 128 + 1 * k.val = (i 1).val; rw [e1, h1]; omega

/-- The right operand's block at every point is the whole array. -/
theorem rhs1_apply (c : Dev nD) (t : Fin cfg1.N) (k : Fin 128) (q : Fin 128) (i : S128x128.Idx)
    (h0 : (i 0).val = k.val) (h1 : (i 1).val = q.val) :
    (iblk1 V c 1 t : S128x128.Idx → EReal) (ix2 k q) = (V c main_v18 : S128x128.Idx → EReal) i := by
  obtain ⟨-, -, e2, e3, -, -⟩ := idx1 t
  unfold iblk1
  rw [View.read_apply]
  show V c main_v18 _ = V c main_v18 _
  congr 1
  funext a
  apply Fin.ext
  match a with
  | ⟨0, _⟩ => show win1_1.index t (0 : Fin 2) * 128 + 1 * k.val = (i 0).val; rw [e2, h0]; omega
  | ⟨1, _⟩ => show win1_1.index t (1 : Fin 2) * 128 + 1 * q.val = (i 1).val; rw [e3, h1]; omega

/-- What point t writes back is block t of the product of the two arrays as the region finds them. -/
theorem flushed1_eq (c : Dev nD) (t : Fin cfg1.N) :
    (dat1 (F := Ideal) V c).flushed 2 t
      = ((cfg1.win 2).blk t).view.read (Elt Ideal) (prod1 (V c main_v17) (V c main_v18)) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx1 t
  funext y
  obtain ⟨p, q, rfl⟩ : ∃ (p : Fin 5000) (q : Fin 128), y = ix2 p q := ⟨y 0, y 1, eq_ix2 (n0 := 5000) (n1 := 128) y⟩
  have hr : t.val * 5000 + p.val < 50000 := by
    have ht : t.val < 10 := lt_of_lt_of_eq t.isLt N_1
    omega
  show k1_pay1 (iblk1 V c 0 t) (iblk1 V c 1 t) (ix2 p q)
      = prod1 (V c main_v17) (V c main_v18) (((cfg1.win 2).blk t).view.emb (ix2 p q))
  have hi : ((cfg1.win 2).blk t).view.emb (ix2 p q) = (ix2 ⟨t.val * 5000 + p.val, hr⟩ q : S50000x128.Idx) := by
    funext a
    apply Fin.ext
    match a with
    | ⟨0, _⟩ => show win1_2.index t (0 : Fin 2) * 5000 + 1 * p.val = t.val * 5000 + p.val; rw [e4]; omega
    | ⟨1, _⟩ => show win1_2.index t (1 : Fin 2) * 128 + 1 * q.val = q.val; rw [e5]; omega
  rw [hi, prod1_apply, pay1_apply]
  refine Finset.sum_congr rfl fun k _ => ?_
  rw [lhs1_apply V c t p k (ix2 ⟨t.val * 5000 + p.val, hr⟩ k) rfl rfl, rhs1_apply V c t k q (ix2 k q) rfl rfl]

/-- Row r of the output is in the block of point r / 5000: the output's blocks fill the array. -/
theorem cover1 (i : S50000x128.Idx) :
    ∃ t : Fin cfg1.N, (cfg1.win 2).flush t = true ∧ i ∈ ((cfg1.win 2).blk t).view.set := by
  have h0 : (i 0).val < 50000 := (i 0).isLt
  have h1 : (i 1).val < 128 := (i 1).isLt
  have ht : (i 0).val / 5000 < cfg1.N := by rw [show cfg1.N = 10 from N_1]; omega
  refine ⟨⟨(i 0).val / 5000, ht⟩, flush1_2 _, ?_⟩
  obtain ⟨-, -, -, -, e4, e5⟩ := idx1 ⟨(i 0).val / 5000, ht⟩
  show i ∈ ((View.whole main_v19).slice (win1_2.rect ⟨(i 0).val / 5000, ht⟩)).set
  rw [View.set_slice_whole, Rect.mem_set_unit]
  intro a
  match a with
  | ⟨0, _⟩ =>
    show win1_2.index ⟨(i 0).val / 5000, ht⟩ (0 : Fin 2) * 5000 ≤ (i 0).val
      ∧ (i 0).val < win1_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win1_2.index ⟨(i 0).val / 5000, ht⟩ (1 : Fin 2) * 128 ≤ (i 1).val
      ∧ (i 1).val < win1_2.index ⟨(i 0).val / 5000, ht⟩ (1 : Fin 2) * 128 + 128
    rw [e5]; omega

/-- The output array after the region's write-backs is the product of the two input arrays as the region found
    them. -/
theorem final1 (c : Dev nD) :
    (dat1 (F := Ideal) V c).arrAt 2 cfg1.N = prod1 (V c main_v17) (V c main_v18) :=
  (dat1 (F := Ideal) V c).arrAt_eq_of_cover 2 (prod1 (V c main_v17) (V c main_v18))
    (fun t _ => flushed1_eq V c t) cover1

/-- The same at an entry: the textbook sum. -/
theorem final1_apply (c : Dev nD) (r : Fin 50000) (j : Fin 128) :
    (dat1 (F := Ideal) V c).arrAt 2 cfg1.N (ix2 r j)
      = ∑ k : Fin 128, (V c main_v17 (ix2 r k) *ₑ V c main_v18 (ix2 k j)) := by
  rw [final1]
  rfl

end Cert.KernelIdeal.RegionValue

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«148251_j31490700214327_2_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibRowOps.lean ====
/-
  A row gather and a row scatter-add read at an entry.

  "Sparse matrix times dense" is written as: take the rows `x[src]` of a dense `[N, C]` array at `E` row numbers,
  scale them, and add row `e` of the `[E, C]` result into row `dst[e]` of an `[N, C]` accumulator. In StableHLO the
  first step is a `gather` whose slices are whole rows (operand `[N, C]`, start indices `[E, 1]`, result `[E, C]`;
  offset axis 1, collapsed axis 0, start index map `[0]`, index vector on axis 1, slice sizes `[1, C]`), and the last
  step is a `scatter` with an `add` body whose windows are whole rows (operand `[N, C]`, scatter indices `[E, 1]`,
  updates `[E, C]`; update window axis 1, inserted window axis 0, scatter-dims-to-operand-dims `[0]`, index vector on
  axis 1). This file reads both at one entry, for all extents `N`, `E`, `C`:

  * `gather_rows_apply`: entry `(e, c)` of the gather is the operand's entry `(r, c)`, where `r` is the start index
    `idx (e, 0)` read as a signed integer and clamped into `[0, N − 1]`;
  * `scatterAdd_rows_apply`: at the ideal instance (the extended reals), entry `(n, c)` of the scatter-add is the
    operand's entry `(n, c)` plus the sum over `e : Fin E` of the update's entry `(e, c)` for those `e` whose scatter
    index `idx (e, 0)`, read as a signed integer, is `n`. An update whose row number is negative or at least `N`
    lands nowhere: it equals no `n : Fin N`.

  Each is stated twice: for the record `rowGatherDims` / `rowScatterDims` built from the extents (a literal record
  with the same lists is that record by unfolding, its decided conditions being a proof of the same proposition), and,
  `…_of_eq`, for ANY record whose lists are the ones above (each hypothesis closes by `rfl` on a literal record), the
  form to rewrite with.
-/
import Idealize.ShloMosaic.PureOps.Ideal.Laws
import Idealize.ShloMosaic.Lib.ValueIdx

noncomputable section

open scoped BigOperators

namespace Cert.LibRowOps

open Idealize.ShloMosaic Idealize.ShloMosaic.ValueIdx

variable {N E C w : Nat}

/-- Axis 1 is not the axis 0 the index maps name. -/
private theorem one_not_mem_zero : (1 : Fin 2) ∉ ([0] : List (Fin 2)) := by decide
/-- Of two axes, the ones other than axis 0 do not include axis 0 … -/
private theorem zero_not_mem_kept : (0 : Fin 2) ∉ (List.finRange 2).filter (fun a => a ∉ ([0] : List (Fin 2))) := by decide
/-- … and do include axis 1. -/
private theorem one_mem_kept : (1 : Fin 2) ∈ (List.finRange 2).filter (fun a => a ∉ ([0] : List (Fin 2))) := by decide
/-- The same with the (empty) list of batching axes appended to the removed ones. -/
private theorem one_mem_kept_append :
    (1 : Fin 2) ∈ (List.finRange 2).filter (fun a => a ∉ ([0] ++ [] : List (Fin 2))) := by decide

/-! ## The row scatter-add -/

/-- The dimension numbers of a scatter of whole rows: operand `[N, C]`, scatter indices `[E, 1]`, updates `[E, C]`;
    the updates' axis 1 is the window axis, the operand's axis 0 is the inserted one and the one the scatter index
    names, and the index vector lies along axis 1 of the scatter indices. Their conditions `wf` are decided on a
    program's literal extents. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- On the row axis the window of update `(e, c')` starts at the scatter index `idx (e, 0)`, read signed. -/
theorem scatter_start_zero (wf) (idx : IVec ⟨2, ![E, 1]⟩ w) (e : Fin E) (c' : Fin C) :
    (rowScatterDims N E C wf).start (ix2 e c') idx 0 = (idx (ix2 e ⟨0, Nat.one_pos⟩)).toInt := by
  unfold ScatterDims.start
  rw [dif_pos (show (0 : Fin 2) ∈ (rowScatterDims N E C wf).scatterDimsToOperandDims from List.mem_singleton.mpr rfl)]
  have hsi : (rowScatterDims N E C wf).siIdx (ix2 e c')
      ⟨List.idxOf (0 : Fin 2) (rowScatterDims N E C wf).scatterDimsToOperandDims,
        List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- On the column axis, which no scatter index names, every window starts at `0`. -/
theorem scatter_start_one (wf) (idx : IVec ⟨2, ![E, 1]⟩ w) (j : (⟨2, ![E, C]⟩ : Shape).Idx) :
    (rowScatterDims N E C wf).start j idx 1 = 0 := by
  unfold ScatterDims.start
  rw [dif_neg (show (1 : Fin 2) ∉ (rowScatterDims N E C wf).scatterDimsToOperandDims from one_not_mem_zero)]

/-- The row axis is inserted: the window coordinate there is `0`. -/
theorem scatter_window_zero (wf) (j : (⟨2, ![E, C]⟩ : Shape).Idx) :
    (rowScatterDims N E C wf).window j 0 = 0 := by
  unfold ScatterDims.window
  rw [dif_neg (show (0 : Fin 2) ∉ (rowScatterDims N E C wf).sKept from zero_not_mem_kept)]

/-- On the column axis the window coordinate of update `(e, c')` is its column `c'`. -/
theorem scatter_window_one (wf) (e : Fin E) (c' : Fin C) :
    (rowScatterDims N E C wf).window (ix2 e c') 1 = c'.val := by
  unfold ScatterDims.window
  rw [dif_pos (show (1 : Fin 2) ∈ (rowScatterDims N E C wf).sKept from one_mem_kept)]
  rfl

/-- WHERE AN UPDATE LANDS: update `(e, c')` lands at operand entry `(n, c)` exactly when its scatter index
    `idx (e, 0)`, read signed, is `n` and its column `c'` is `c`. (Start plus window coordinate is the signed index
    on the row axis and `c'` on the column axis; a row outside `[0, N)` is dropped, and is no `n : Fin N`.) -/
theorem scatter_resultIdx?_iff (wf) (idx : IVec ⟨2, ![E, 1]⟩ w) (e : Fin E) (c' : Fin C) (n : Fin N) (c : Fin C) :
    (rowScatterDims N E C wf).resultIdx? (ix2 e c') idx = some (ix2 n c)
      ↔ (idx (ix2 e ⟨0, Nat.one_pos⟩)).toInt = (n.val : Int) ∧ c' = c := by
  have h0 := scatter_start_zero (N := N) wf idx e c'
  have h1 := scatter_start_one (N := N) wf idx (ix2 e c')
  have w0 := scatter_window_zero (N := N) wf (ix2 e c')
  have w1 := scatter_window_one (N := N) wf e c'
  unfold ScatterDims.resultIdx?
  split
  · -- the window is inside the operand: compare the two coordinates
    rename_i h
    have g0 := h 0
    have g1 := h 1
    rw [h0, w0] at g0
    rw [h1, w1] at g1
    rw [Option.some.injEq]
    constructor
    · intro hf
      have e0 : ((rowScatterDims N E C wf).start (ix2 e c') idx 0
          + (rowScatterDims N E C wf).window (ix2 e c') 0).toNat = n.val := congrArg (fun f => (f 0).val) hf
      have e1 : ((rowScatterDims N E C wf).start (ix2 e c') idx 1
          + (rowScatterDims N E C wf).window (ix2 e c') 1).toNat = c.val := congrArg (fun f => (f 1).val) hf
      rw [h0, w0] at e0
      rw [h1, w1] at e1
      exact ⟨by omega, Fin.ext (by omega)⟩
    · rintro ⟨hz, rfl⟩
      funext a
      refine Fin.ext ?_
      match a with
      | ⟨0, _⟩ =>
        show ((rowScatterDims N E C wf).start (ix2 e c') idx 0
          + (rowScatterDims N E C wf).window (ix2 e c') 0).toNat = n.val
        rw [h0, w0]; omega
      | ⟨1, _⟩ =>
        show ((rowScatterDims N E C wf).start (ix2 e c') idx 1
          + (rowScatterDims N E C wf).window (ix2 e c') 1).toNat = c'.val
        rw [h1, w1]; omega
  · -- the window leaves the operand: then the signed index is no row number
    rename_i h
    constructor
    · intro hf; exact absurd hf (by simp)
    · rintro ⟨hz, rfl⟩
      exfalso; apply h; intro a
      match a with
      | ⟨0, _⟩ =>
        show 0 ≤ (rowScatterDims N E C wf).start (ix2 e c') idx 0 + (rowScatterDims N E C wf).window (ix2 e c') 0
          ∧ (rowScatterDims N E C wf).start (ix2 e c') idx 0 + (rowScatterDims N E C wf).window (ix2 e c') 0 < (N : Int)
        rw [h0, w0]; have := n.isLt; omega
      | ⟨1, _⟩ =>
        show 0 ≤ (rowScatterDims N E C wf).start (ix2 e c') idx 1 + (rowScatterDims N E C wf).window (ix2 e c') 1
          ∧ (rowScatterDims N E C wf).start (ix2 e c') idx 1 + (rowScatterDims N E C wf).window (ix2 e c') 1 < (C : Int)
        rw [h1, w1]; have := c'.isLt; omega

/-- THE ROW SCATTER-ADD READ AT `(n, c)`, at the ideal instance: the operand's entry plus the sum, over the update
    rows `e`, of the update's entry `(e, c)` when the scatter index `idx (e, 0)`, read signed, is `n`, and `0`
    otherwise. (The sum over the updates that land at `(n, c)` is a double sum over `(e, c')`; by
    `scatter_resultIdx?_iff` the inner sum over `c'` has the one term `c' = c`.) -/
theorem scatterAdd_rows_apply {φ : FTy} (wf) (x : FVec Ideal ⟨2, ![N, C]⟩ φ) (idx : IVec ⟨2, ![E, 1]⟩ w)
    (upd : FVec Ideal ⟨2, ![E, C]⟩ φ) (n : Fin N) (c : Fin C) :
    Host.scatterAdd (F := Ideal) (rowScatterDims N E C wf) x idx upd (ix2 n c)
      = x (ix2 n c)
        + ∑ e : Fin E, if (idx (ix2 e ⟨0, Nat.one_pos⟩)).toInt = (n.val : Int) then upd (ix2 e c) else 0 := by
  show x (ix2 n c) + ∑ j ∈ Finset.univ.filter
    (fun j => (rowScatterDims N E C wf).resultIdx? j idx = some (ix2 n c)), upd j = _
  congr 1
  rw [Finset.sum_filter, sum_idx2]
  refine Finset.sum_congr rfl fun e _ => ?_
  by_cases hz : (idx (ix2 e ⟨0, Nat.one_pos⟩)).toInt = (n.val : Int)
  · simp only [scatter_resultIdx?_iff, hz, true_and, if_true, Finset.sum_ite_eq', Finset.mem_univ]
  · simp only [scatter_resultIdx?_iff, hz, false_and, if_false, Finset.sum_const_zero]

/-- A record with the row scatter's four lists IS `rowScatterDims`. -/
theorem eq_rowScatterDims (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) : ∃ wf, d = rowScatterDims N E C wf := by
  obtain ⟨uw, iw, sd, iv, wf⟩ := d
  simp only at huw hiw hsd hiv
  subst huw hiw hsd hiv
  exact ⟨wf, rfl⟩

/-- The row scatter-add read at `(n, c)`, for ANY record with the row scatter's four lists. -/
theorem scatterAdd_rows_apply_of_eq {φ : FTy} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hiv : d.indexVectorDim = 1) (x : FVec Ideal ⟨2, ![N, C]⟩ φ) (idx : IVec ⟨2, ![E, 1]⟩ w)
    (upd : FVec Ideal ⟨2, ![E, C]⟩ φ) (n : Fin N) (c : Fin C) :
    Host.scatterAdd (F := Ideal) d x idx upd (ix2 n c)
      = x (ix2 n c)
        + ∑ e : Fin E, if (idx (ix2 e ⟨0, Nat.one_pos⟩)).toInt = (n.val : Int) then upd (ix2 e c) else 0 := by
  obtain ⟨wf, rfl⟩ := eq_rowScatterDims d huw hiw hsd hiv
  exact scatterAdd_rows_apply wf x idx upd n c

/-! ## The row gather -/

/-- The dimension numbers of a gather of whole rows: operand `[N, C]`, start indices `[E, 1]`, result `[E, C]`; the
    result's axis 1 is the offset axis, the operand's axis 0 is collapsed and is the one the start index names, the
    index vector lies along axis 1 of the start indices, and a slice is one row, `[1, C]`. Their conditions `wf` are
    decided on a program's literal extents. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx (e, 0)`, read signed and clamped into `[0, N − 1]`, and
    column `c`. (On the row axis the operand index is the clamped start, the axis being collapsed and not a batching
    one; on the column axis the start is `0` and the offset coordinate is `c`.) -/
theorem gather_rows_apply {α : Type} (hN : 0 < N) (wf) (x : (⟨2, ![N, C]⟩ : Shape).Idx → α)
    (idx : IVec ⟨2, ![E, 1]⟩ w) (e : Fin E) (c : Fin C) :
    Host.gather (rowGatherDims N E C wf) x idx (ix2 e c)
      = x (ix2 ⟨min (idx (ix2 e ⟨0, Nat.one_pos⟩)).toInt.toNat (N - 1), by omega⟩ c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = min (idx (ix2 e ⟨0, Nat.one_pos⟩)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c)
        ⟨List.idxOf (0 : Fin 2) (rowGatherDims N E C wf).startIndexMap,
          List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap from one_not_mem_zero)]
    have ho : (rowGatherDims N E C wf).offCoord (ix2 e c) 1 = c.val := by
      unfold GatherDims.offCoord
      rw [dif_pos (show (1 : Fin 2) ∈ (rowGatherDims N E C wf).sKept from one_mem_kept_append)]
      rfl
    rw [hs, ho]; omega

/-- A record with the row gather's seven fields IS `rowGatherDims`. -/
theorem eq_rowGatherDims (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) : ∃ wf, d = rowGatherDims N E C wf := by
  obtain ⟨od, cd, ob, sb, sm, iv, ss, wf⟩ := d
  simp only at hod hcd hob hsb hsm hiv hss
  subst hod hcd hob hsb hsm hiv hss
  exact ⟨wf, rfl⟩

/-- The row gather read at `(e, c)`, for ANY record with the row gather's seven fields. -/
theorem gather_rows_apply_of_eq {α : Type} (hN : 0 < N) (d : GatherDims ⟨2, ![N, C]⟩ ⟨2, ![E, 1]⟩ ⟨2, ![E, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C]) (x : (⟨2, ![N, C]⟩ : Shape).Idx → α) (idx : IVec ⟨2, ![E, 1]⟩ w)
    (e : Fin E) (c : Fin C) :
    Host.gather d x idx (ix2 e c)
      = x (ix2 ⟨min (idx (ix2 e ⟨0, Nat.one_pos⟩)).toInt.toNat (N - 1), by omega⟩ c) := by
  obtain ⟨wf, rfl⟩ := eq_rowGatherDims d hod hcd hob hsb hsm hiv hss
  exact gather_rows_apply hN wf x idx e c

end Cert.LibRowOps
-- ==== Proof.SpmmEntry.lean ====
/-
  The message-passing step read at an entry.

  Both programs compute, for a node table `Y` with 128 or with 64 columns, the table whose row `n` is the sum over the
  edges `e` whose destination is `n` of the edge's weight times row `src e` of `Y`: a gather of the source rows, an
  elementwise product with the weights repeated along the columns, and a scatter-add of the products into a table of
  zeros at the destination rows. Read at entry `(n, c)` this is one pure expression in the column `c` of `Y` alone,
  `stepAt`: the zero constant plus the sum over all edges `e` of `Y (rowOf (src e), c) · w e` when `dst e`, read as a
  signed integer, is `n`, and `0` otherwise — where `rowOf` is the gather's clamp of a signed start index into the
  table's rows. The kernel program's 128-column step and the reference's 64-column and 128-column steps are each
  shown to be `stepAt` of the same edge columns, weights and table column; the two programs' edge columns and
  128-column steps are moreover the same functions outright.
-/
import proofs.«148251_j31490700214327_2_alg».proof.Proof.KernelHost
import proofs.«148251_j31490700214327_2_alg».proof.Proof.RefStages
import proofs.«148251_j31490700214327_2_alg».proof.Proof.LibRowOps
import Idealize.ShloMosaic.Lib.Pipeline.Value
import Idealize.ShloMosaic.Lib.ValueIdx

noncomputable section

open scoped BigOperators

namespace Cert.SpmmEntry

open Idealize.ShloMosaic Idealize.ShloMosaic.ValueIdx

/-- The row a signed start index reads: clamped into `[0, 49999]`. -/
def rowOf (b : BitVec 32) : Fin 50000 := ⟨min b.toInt.toNat (50000 - 1), by omega⟩

/-- Entry `n` of one column `X` of the table after the step: the zero constant plus, over all edges `e`, the source
    row's entry times the edge's weight when the edge's destination, read signed, is `n`. -/
def stepAt (src dst : Fin 800000 → BitVec 32) (w : Fin 800000 → EReal) (X : Fin 50000 → EReal) (n : Fin 50000) : EReal :=
  Ideal.ofBits .f32 0x00000000#32
    + ∑ e : Fin 800000, if (dst e).toInt = (n.val : Int) then X (rowOf (src e)) * w e else 0

/-- THE KERNEL PROGRAM'S STEP AT `(n, c)`. The scatter-add read at an entry is the zero table's entry plus the sum
    over the edges landing in row `n`; each summand is a product read at `(e, c)`, whose first factor is the row
    gather read at `(e, c)` and whose second is the weight `x2 e`, the two broadcasts reading through. -/
theorem kernel_spmm_apply (x1 : (⟨Cert.KernelIdeal.S2x800000, .i32⟩ : BufTy).Contents (Elt Ideal))
    (x2 : (⟨Cert.KernelIdeal.S800000, .f32⟩ : BufTy).Contents (Elt Ideal))
    (Y : (⟨Cert.KernelIdeal.S50000x128, .f32⟩ : BufTy).Contents (Elt Ideal)) (n : Fin 50000) (c : Fin 128) :
    Cert.KernelIdeal.HostValue.spmm (F := Ideal) x1 x2 Y (ix2 n c)
      = stepAt (fun e => Cert.KernelIdeal.HostValue.srcCol (F := Ideal) x1 (ix2 e ⟨0, Nat.one_pos⟩))
          (fun e => Cert.KernelIdeal.HostValue.dstCol (F := Ideal) x1 (ix2 e ⟨0, Nat.one_pos⟩))
          (fun e => x2 (ix1 e)) (fun r => Y (ix2 r c)) n := by
  unfold Cert.KernelIdeal.HostValue.spmm stepAt
  have h := Cert.LibRowOps.scatterAdd_rows_apply_of_eq (φ := .f32)
    Cert.KernelIdeal.scatter_S50000x128_S800000x1_S800000x128_1_0_0_1 rfl rfl rfl rfl
    (broadcastInDim Cert.KernelIdeal.S50000x128 ![] Cert.KernelIdeal.Gen.bcast_S_S50000x128
      (constant (F := Ideal) Cert.KernelIdeal.S_ .f32 0x00000000#32))
    (Cert.KernelIdeal.HostValue.dstCol (F := Ideal) x1)
    (mulf (Host.gather Cert.KernelIdeal.gather_S50000x128_S800000x1_S800000x128_1_0_n_n_0_1_1128 Y
      (Cert.KernelIdeal.HostValue.srcCol (F := Ideal) x1)) (Cert.KernelIdeal.HostValue.wCols (F := Ideal) x2)) n c
  refine h.trans ?_
  refine congrArg₂ (· + ·) rfl (Finset.sum_congr rfl fun e _ => ?_)
  refine if_congr Iff.rfl ?_ rfl
  show Host.gather Cert.KernelIdeal.gather_S50000x128_S800000x1_S800000x128_1_0_n_n_0_1_1128 Y (Cert.KernelIdeal.HostValue.srcCol (F := Ideal) x1) (ix2 e c)
      * Cert.KernelIdeal.HostValue.wCols (F := Ideal) x2 (ix2 e c)
    = Y (ix2 (rowOf (Cert.KernelIdeal.HostValue.srcCol (F := Ideal) x1 (ix2 e ⟨0, Nat.one_pos⟩))) c) * x2 (ix1 e)
  refine congrArg₂ (· * ·) ?_ ?_
  · exact Cert.LibRowOps.gather_rows_apply_of_eq (by decide)
      Cert.KernelIdeal.gather_S50000x128_S800000x1_S800000x128_1_0_n_n_0_1_1128 rfl rfl rfl rfl rfl rfl rfl Y
      (Cert.KernelIdeal.HostValue.srcCol (F := Ideal) x1) e c
  · unfold Cert.KernelIdeal.HostValue.wCols
    refine (broadcastInDim_apply _ _ _ (ix2 e c) (ix2 e ⟨0, Nat.one_pos⟩) (fun a => ?_)).trans ?_
    · match a with
      | ⟨0, _⟩ => rfl
      | ⟨1, _⟩ => rfl
    · refine broadcastInDim_apply _ _ _ _ (ix1 e) (fun a => ?_)
      match a with
      | ⟨0, _⟩ => rfl

/-- THE REFERENCE'S 64-COLUMN STEP AT `(n, c)`: the same reading, at 64 columns. -/
theorem ref_spmm64_apply (x1 : (⟨Cert.ReferenceIdeal.S2x800000, .i32⟩ : BufTy).Contents (Elt Ideal))
    (x2 : (⟨Cert.ReferenceIdeal.S800000, .f32⟩ : BufTy).Contents (Elt Ideal))
    (Y : (⟨Cert.ReferenceIdeal.S50000x64, .f32⟩ : BufTy).Contents (Elt Ideal)) (n : Fin 50000) (c : Fin 64) :
    Cert.ReferenceIdeal.RefValue.spmm64 (F := Ideal) x1 x2 Y (ix2 n c)
      = stepAt (fun e => Cert.ReferenceIdeal.RefValue.srcCol (F := Ideal) x1 (ix2 e ⟨0, Nat.one_pos⟩))
          (fun e => Cert.ReferenceIdeal.RefValue.dstCol (F := Ideal) x1 (ix2 e ⟨0, Nat.one_pos⟩))
          (fun e => x2 (ix1 e)) (fun r => Y (ix2 r c)) n := by
  unfold Cert.ReferenceIdeal.RefValue.spmm64 stepAt
  have h := Cert.LibRowOps.scatterAdd_rows_apply_of_eq (φ := .f32)
    Cert.ReferenceIdeal.scatter_S50000x64_S800000x1_S800000x64_1_0_0_1 rfl rfl rfl rfl
    (broadcastInDim Cert.ReferenceIdeal.S50000x64 ![] Cert.ReferenceIdeal.Gen.bcast_S_S50000x64
      (constant (F := Ideal) Cert.ReferenceIdeal.S_ .f32 0x00000000#32))
    (Cert.ReferenceIdeal.RefValue.dstCol (F := Ideal) x1)
    (mulf (Host.gather Cert.ReferenceIdeal.gather_S50000x64_S800000x1_S800000x64_1_0_n_n_0_1_164 Y
      (Cert.ReferenceIdeal.RefValue.srcCol (F := Ideal) x1)) (Cert.ReferenceIdeal.RefValue.wCols64 (F := Ideal) x2)) n c
  refine h.trans ?_
  refine congrArg₂ (· + ·) rfl (Finset.sum_congr rfl fun e _ => ?_)
  refine if_congr Iff.rfl ?_ rfl
  show Host.gather Cert.ReferenceIdeal.gather_S50000x64_S800000x1_S800000x64_1_0_n_n_0_1_164 Y (Cert.ReferenceIdeal.RefValue.srcCol (F := Ideal) x1) (ix2 e c)
      * Cert.ReferenceIdeal.RefValue.wCols64 (F := Ideal) x2 (ix2 e c)
    = Y (ix2 (rowOf (Cert.ReferenceIdeal.RefValue.srcCol (F := Ideal) x1 (ix2 e ⟨0, Nat.one_pos⟩))) c) * x2 (ix1 e)
  refine congrArg₂ (· * ·) ?_ ?_
  · exact Cert.LibRowOps.gather_rows_apply_of_eq (by decide)
      Cert.ReferenceIdeal.gather_S50000x64_S800000x1_S800000x64_1_0_n_n_0_1_164 rfl rfl rfl rfl rfl rfl rfl Y
      (Cert.ReferenceIdeal.RefValue.srcCol (F := Ideal) x1) e c
  · unfold Cert.ReferenceIdeal.RefValue.wCols64
    refine (broadcastInDim_apply _ _ _ (ix2 e c) (ix2 e ⟨0, Nat.one_pos⟩) (fun a => ?_)).trans ?_
    · match a with
      | ⟨0, _⟩ => rfl
      | ⟨1, _⟩ => rfl
    · refine broadcastInDim_apply _ _ _ _ (ix1 e) (fun a => ?_)
      match a with
      | ⟨0, _⟩ => rfl

/-- The reference's 128-column step at `(n, c)`: the same reading again. -/
theorem ref_spmm_apply (x1 : (⟨Cert.ReferenceIdeal.S2x800000, .i32⟩ : BufTy).Contents (Elt Ideal))
    (x2 : (⟨Cert.ReferenceIdeal.S800000, .f32⟩ : BufTy).Contents (Elt Ideal))
    (Y : (⟨Cert.ReferenceIdeal.S50000x128, .f32⟩ : BufTy).Contents (Elt Ideal)) (n : Fin 50000) (c : Fin 128) :
    Cert.ReferenceIdeal.RefValue.spmm (F := Ideal) x1 x2 Y (ix2 n c)
      = stepAt (fun e => Cert.ReferenceIdeal.RefValue.srcCol (F := Ideal) x1 (ix2 e ⟨0, Nat.one_pos⟩))
          (fun e => Cert.ReferenceIdeal.RefValue.dstCol (F := Ideal) x1 (ix2 e ⟨0, Nat.one_pos⟩))
          (fun e => x2 (ix1 e)) (fun r => Y (ix2 r c)) n := by
  unfold Cert.ReferenceIdeal.RefValue.spmm stepAt
  have h := Cert.LibRowOps.scatterAdd_rows_apply_of_eq (φ := .f32)
    Cert.ReferenceIdeal.scatter_S50000x128_S800000x1_S800000x128_1_0_0_1 rfl rfl rfl rfl
    (broadcastInDim Cert.ReferenceIdeal.S50000x128 ![] Cert.ReferenceIdeal.Gen.bcast_S_S50000x128
      (constant (F := Ideal) Cert.ReferenceIdeal.S_ .f32 0x00000000#32))
    (Cert.ReferenceIdeal.RefValue.dstCol (F := Ideal) x1)
    (mulf (Host.gather Cert.ReferenceIdeal.gather_S50000x128_S800000x1_S800000x128_1_0_n_n_0_1_1128 Y
      (Cert.ReferenceIdeal.RefValue.srcCol (F := Ideal) x1)) (Cert.ReferenceIdeal.RefValue.wCols (F := Ideal) x2)) n c
  refine h.trans ?_
  refine congrArg₂ (· + ·) rfl (Finset.sum_congr rfl fun e _ => ?_)
  refine if_congr Iff.rfl ?_ rfl
  show Host.gather Cert.ReferenceIdeal.gather_S50000x128_S800000x1_S800000x128_1_0_n_n_0_1_1128 Y (Cert.ReferenceIdeal.RefValue.srcCol (F := Ideal) x1) (ix2 e c)
      * Cert.ReferenceIdeal.RefValue.wCols (F := Ideal) x2 (ix2 e c)
    = Y (ix2 (rowOf (Cert.ReferenceIdeal.RefValue.srcCol (F := Ideal) x1 (ix2 e ⟨0, Nat.one_pos⟩))) c) * x2 (ix1 e)
  refine congrArg₂ (· * ·) ?_ ?_
  · exact Cert.LibRowOps.gather_rows_apply_of_eq (by decide)
      Cert.ReferenceIdeal.gather_S50000x128_S800000x1_S800000x128_1_0_n_n_0_1_1128 rfl rfl rfl rfl rfl rfl rfl Y
      (Cert.ReferenceIdeal.RefValue.srcCol (F := Ideal) x1) e c
  · unfold Cert.ReferenceIdeal.RefValue.wCols
    refine (broadcastInDim_apply _ _ _ (ix2 e c) (ix2 e ⟨0, Nat.one_pos⟩) (fun a => ?_)).trans ?_
    · match a with
      | ⟨0, _⟩ => rfl
      | ⟨1, _⟩ => rfl
    · refine broadcastInDim_apply _ _ _ _ (ix1 e) (fun a => ?_)
      match a with
      | ⟨0, _⟩ => rfl

/-- The two programs read the edges' sources alike: the same operations on the same argument. -/
theorem srcCol_eq (x1 : (⟨Cert.KernelIdeal.S2x800000, .i32⟩ : BufTy).Contents (Elt Ideal)) :
    Cert.KernelIdeal.HostValue.srcCol (F := Ideal) x1 = Cert.ReferenceIdeal.RefValue.srcCol (F := Ideal) x1 := rfl

/-- They read the edges' destinations alike. -/
theorem dstCol_eq (x1 : (⟨Cert.KernelIdeal.S2x800000, .i32⟩ : BufTy).Contents (Elt Ideal)) :
    Cert.KernelIdeal.HostValue.dstCol (F := Ideal) x1 = Cert.ReferenceIdeal.RefValue.dstCol (F := Ideal) x1 := rfl

/-- And the 128-column steps of the two programs are one function. -/
theorem spmm_eq (x1 : (⟨Cert.KernelIdeal.S2x800000, .i32⟩ : BufTy).Contents (Elt Ideal))
    (x2 : (⟨Cert.KernelIdeal.S800000, .f32⟩ : BufTy).Contents (Elt Ideal))
    (Y : (⟨Cert.KernelIdeal.S50000x128, .f32⟩ : BufTy).Contents (Elt Ideal)) :
    Cert.KernelIdeal.HostValue.spmm (F := Ideal) x1 x2 Y = Cert.ReferenceIdeal.RefValue.spmm (F := Ideal) x1 x2 Y := rfl

end Cert.SpmmEntry
-- ==== Proof.Bridge1.lean ====
/-
  The first half of the kernel program's value: the hidden layer, and the second product.

  The first region's output is the product features · W1, tile by tile; read as one array it is the reference's
  `dot_general` of the same two arguments (both are the sum over k of a row entry times a column entry). The
  stretch of host operations after it runs the message-passing step on that product — the very operations the
  reference runs — so the second region's left operand is the reference's hidden layer, and its right operand is the
  two 128×64 weight matrices side by side. The second region's output is then their product, again tile by tile.
-/
import proofs.«148251_j31490700214327_2_alg».proof.Proof.KernelHost
import proofs.«148251_j31490700214327_2_alg».proof.Proof.RefStages
import proofs.«148251_j31490700214327_2_alg».proof.Proof.RegionValue0
import proofs.«148251_j31490700214327_2_alg».proof.Proof.RegionValue1
import proofs.«148251_j31490700214327_2_alg».proof.Proof.LibDotGeneralNN
import proofs.«148251_j31490700214327_2_alg».proof.Proof.SpmmEntry

noncomputable section

namespace Cert.Bridge

open Idealize.ShloMosaic Idealize.ShloMosaic.TcCoe Idealize.SL.Sem Idealize.ShloMosaic.ValueIdx
open Cert.KernelIdeal Cert.KernelIdeal.Gen
open Cert.ReferenceIdeal.Read (val_main_v0 val_main_v17 val_main_v18 val_main_v37)

variable (m : (ℓ : Loc nD τ sig) → Buf (Elt Ideal) ℓ) (ρ : Dev nD → PrngReg) (c : Dev nD)

/-- A product of a 50000×256 by a 256×128 array, entry by entry, is the host's `dot_general` of the two. -/
theorem prod0_eq_dot (a : S50000x256.Idx → EReal) (b : S256x128.Idx → EReal) :
    Cert.KernelIdeal.RegionValue.prod0 a b = val_main_v0 (F := Ideal) a b := by
  funext i
  obtain ⟨r, j, rfl⟩ : ∃ (r : Fin 50000) (j : Fin 128), i = ix2 r j := ⟨_, _, eq_ix2 i⟩
  rw [Cert.KernelIdeal.RegionValue.prod0_apply]
  exact (Cert.LibDotGeneralNN.dotGeneral_apply Cert.ReferenceIdeal.dot_S50000x256_S256x128_S50000x128_1_0_0_1_n_n
    rfl rfl rfl rfl rfl rfl none .single a b r j).symm

/-- After the first region its output array holds features · W1, the reference's first stage. -/
theorem first_product : W1 m ρ c (Proc.devRef .tc main_v0)
    = val_main_v0 (F := Ideal) (m ((c : Thread nD τ).loc main_arg0)) (m ((c : Thread nD τ).loc main_arg5)) :=
  ((W1_arr m ρ c 2).trans (Cert.KernelIdeal.RegionValue.final0 (V0 m ρ) c)).trans (prod0_eq_dot _ _)

/-- The first region writes none of the other arguments. -/
theorem W1_arg1 : W1 m ρ c (Proc.devRef .tc main_arg1) = m ((c : Thread nD τ).loc main_arg1) := W1_of_ne m ρ c main_arg1 (by decide)
theorem W1_arg2 : W1 m ρ c (Proc.devRef .tc main_arg2) = m ((c : Thread nD τ).loc main_arg2) := W1_of_ne m ρ c main_arg2 (by decide)
theorem W1_arg3 : W1 m ρ c (Proc.devRef .tc main_arg3) = m ((c : Thread nD τ).loc main_arg3) := W1_of_ne m ρ c main_arg3 (by decide)
theorem W1_arg4 : W1 m ρ c (Proc.devRef .tc main_arg4) = m ((c : Thread nD τ).loc main_arg4) := W1_of_ne m ρ c main_arg4 (by decide)
theorem W1_arg6 : W1 m ρ c (Proc.devRef .tc main_arg6) = m ((c : Thread nD τ).loc main_arg6) := W1_of_ne m ρ c main_arg6 (by decide)
theorem W1_arg7 : W1 m ρ c (Proc.devRef .tc main_arg7) = m ((c : Thread nD τ).loc main_arg7) := W1_of_ne m ρ c main_arg7 (by decide)

/-- The second region's left operand is the reference's hidden layer … -/
theorem hidden : W2 m ρ c (Proc.devRef .tc main_v17)
    = val_main_v17 (F := Ideal) (m ((c : Thread nD τ).loc main_arg0)) (m ((c : Thread nD τ).loc main_arg1))
        (m ((c : Thread nD τ).loc main_arg2)) (m ((c : Thread nD τ).loc main_arg5)) := by
  refine (Cert.KernelIdeal.HostValue.after1_v17 (F := Ideal) (W1 m ρ c)).trans ?_
  rw [first_product, W1_arg1, W1_arg2, Cert.SpmmEntry.spmm_eq]
  exact (Cert.ReferenceIdeal.RefValue.hidden_eq _ _ _ _).symm

/-- … and its right operand the two weight matrices side by side. -/
theorem weights : W2 m ρ c (Proc.devRef .tc main_v18)
    = Cert.KernelIdeal.HostValue.w23 (F := Ideal) (m ((c : Thread nD τ).loc main_arg6)) (m ((c : Thread nD τ).loc main_arg7)) := by
  refine (Cert.KernelIdeal.HostValue.after1_v18 (F := Ideal) (W1 m ρ c)).trans ?_
  rw [W1_arg6, W1_arg7]

/-- After the second region its output array holds the hidden layer times the side-by-side weights. -/
theorem second_product : W3 m ρ c (Proc.devRef .tc main_v19)
    = Cert.KernelIdeal.RegionValue.prod1
        (val_main_v17 (F := Ideal) (m ((c : Thread nD τ).loc main_arg0)) (m ((c : Thread nD τ).loc main_arg1))
          (m ((c : Thread nD τ).loc main_arg2)) (m ((c : Thread nD τ).loc main_arg5)))
        (Cert.KernelIdeal.HostValue.w23 (F := Ideal) (m ((c : Thread nD τ).loc main_arg6)) (m ((c : Thread nD τ).loc main_arg7))) := by
  refine ((W3_arr m ρ c 2).trans (Cert.KernelIdeal.RegionValue.final1 (V2 m ρ) c)).trans ?_
  rw [show V2 m ρ c main_v17 = W2 m ρ c (Proc.devRef .tc main_v17) from rfl,
    show V2 m ρ c main_v18 = W2 m ρ c (Proc.devRef .tc main_v18) from rfl, hidden, weights]

/-- The second region and the stretch before it write none of the arguments the last stretches read. -/
theorem W3_arg1 : W3 m ρ c (Proc.devRef .tc main_arg1) = m ((c : Thread nD τ).loc main_arg1) :=
  (W3_of_ne m ρ c main_arg1 (by decide)).trans ((Cert.KernelIdeal.HostValue.after1_arg1 (F := Ideal) (W1 m ρ c)).trans (W1_arg1 m ρ c))
theorem W3_arg2 : W3 m ρ c (Proc.devRef .tc main_arg2) = m ((c : Thread nD τ).loc main_arg2) :=
  (W3_of_ne m ρ c main_arg2 (by decide)).trans ((Cert.KernelIdeal.HostValue.after1_arg2 (F := Ideal) (W1 m ρ c)).trans (W1_arg2 m ρ c))
theorem W3_arg3 : W3 m ρ c (Proc.devRef .tc main_arg3) = m ((c : Thread nD τ).loc main_arg3) :=
  (W3_of_ne m ρ c main_arg3 (by decide)).trans ((Cert.KernelIdeal.HostValue.after1_arg3 (F := Ideal) (W1 m ρ c)).trans (W1_arg3 m ρ c))
theorem W3_arg4 : W3 m ρ c (Proc.devRef .tc main_arg4) = m ((c : Thread nD τ).loc main_arg4) :=
  (W3_of_ne m ρ c main_arg4 (by decide)).trans ((Cert.KernelIdeal.HostValue.after1_arg4 (F := Ideal) (W1 m ρ c)).trans (W1_arg4 m ρ c))

end Cert.Bridge

end
-- ==== Proof.RegionValue2.lean ====
/-
  The third tiled region of the program, read as mathematics.

  The region multiplies an 8192×64 array `A` by a 64×8192 array `B` into an 8192×8192 array, one 1024×1024 tile of
  the result per grid point: point `t` of the 8×8 grid takes rows `1024·(t / 8) …` of `A` and columns
  `1024·(t % 8) …` of `B`, forms their product into a zero accumulator (the narrowing casts are the identity on
  extended reals, the shape casts are to the same shape), and writes the tile back whole. Since every tile of the
  result is the matching tile of ONE function of `A` and `B` — the entry `(r, j)` is `∑ k, A (r, k) · B (k, j)` — and
  the 64 tiles cover the result, the array after the region is that function: `final2`, and entry by entry
  `final2_apply`. Everything is stated at the contents `V` the region finds on entry, whatever they are.
-/
import proofs.«148251_j31490700214327_2_alg».proof.Proof.Gen.KernelIdeal.Frame
import proofs.«148251_j31490700214327_2_alg».proof.Proof.LibMatmulNN
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

/-! ## The specification: the product of the two input arrays, entry by entry -/

/-- The 8192×8192 product of an 8192×64 array and a 64×8192 array: entry `(r, j)` is `∑ k, a (r, k) · b (k, j)`. -/
def prod2 (a : S8192x64.Idx → EReal) (b : S64x8192.Idx → EReal) : S8192x8192.Idx → EReal :=
  fun i => ∑ k : Fin 64, a (ix2 (⟨(i 0).val, idx2_lt0 i⟩ : Fin 8192) k) * b (ix2 k (⟨(i 1).val, idx2_lt1 i⟩ : Fin 8192))

/-- The product read at the entry with coordinates `r`, `j`. -/
theorem prod2_apply (a : S8192x64.Idx → EReal) (b : S64x8192.Idx → EReal) (r j : Fin 8192) :
    prod2 a b (ix2 r j) = ∑ k : Fin 64, a (ix2 r k) * b (ix2 k j) := rfl

/-! ## The body's tile at an entry -/

/-- The zero offsets of a whole-buffer access, as the constant function. -/
theorem zeros2 : (![0, 0] : Fin 2 → Nat) = fun _ => 0 := funext fun a => by fin_cases a <;> rfl

/-- What the body stores, read at the entry `(p, q)` of the tile: the sum over `k` of the row block's `(p, k)` times the
    column block's `(k, q)` — the matrix product into the zero accumulator, the casts the identity. -/
theorem pay2_apply (x0 : S1024x64.Idx → EReal) (x1 : S64x1024.Idx → EReal) (p q : Fin 1024) :
    k2_pay1 (F := Ideal) x0 x1 (ix2 p q) = ∑ k : Fin 64, x0 (ix2 p k) * x1 (ix2 k q) := by
  unfold k2_pay1
  refine (Cert.LibMatmulNN.matmul_zero_apply' dot_S1024x64_S64x1024_S1024x1024_1_0_0_1_n_n rfl rfl rfl rfl rfl rfl none _ _ p q).trans ?_
  simp only [shapeCast_self]
  rfl

/-! ## The index maps over the grid -/

/-- The printed index maps, decided over the 64 grid points: at point `t` the row block of the first input and of the
    result is `t / 8`, the column block of the second input and of the result is `t % 8`, and each input's other block
    index is 0. -/
theorem idx_facts2 : ∀ t : Fin cfg2.N, win2_0.index t (0 : Fin 2) = t.val / 8 ∧ win2_0.index t (1 : Fin 2) = 0
    ∧ win2_1.index t (0 : Fin 2) = 0 ∧ win2_1.index t (1 : Fin 2) = t.val % 8
    ∧ win2_2.index t (0 : Fin 2) = t.val / 8 ∧ win2_2.index t (1 : Fin 2) = t.val % 8 :=
  (by decide +kernel : ∀ t : Fin grid2.N, _)

variable (V : (c : Dev nD) → (b : Ref sig .tc) → Buf (Elt Ideal) ((c : Thread nD τ).loc b))

/-! ## The input blocks as rows and columns of the input arrays -/

/-- The first input's block at point `t`, at `(p, k)`, is the array's entry `(1024·(t / 8) + p, k)`. -/
theorem iblk2_0_apply (c : Dev nD) (t : Fin cfg2.N) (p : Fin 1024) (k : Fin 64) (r : Fin 8192)
    (hr : r.val = t.val / 8 * 1024 + p.val) :
    (iblk2 (F := Ideal) V c 0 t : S1024x64.Idx → EReal) (ix2 p k) = (V c main_v64 : S8192x64.Idx → EReal) (ix2 r k) := by
  obtain ⟨e00, e01, -, -, -, -⟩ := idx_facts2 t
  unfold iblk2
  rw [View.read_apply]
  show V c main_v64 _ = V c main_v64 _
  congr 1
  funext a
  apply Fin.ext
  match a with
  | ⟨0, _⟩ => show win2_0.index t (0 : Fin 2) * 1024 + 1 * p.val = r.val; rw [e00, hr]; omega
  | ⟨1, _⟩ => show win2_0.index t (1 : Fin 2) * 64 + 1 * k.val = k.val; rw [e01]; omega

/-- The second input's block at point `t`, at `(k, q)`, is the array's entry `(k, 1024·(t % 8) + q)`. -/
theorem iblk2_1_apply (c : Dev nD) (t : Fin cfg2.N) (k : Fin 64) (q : Fin 1024) (j : Fin 8192)
    (hj : j.val = t.val % 8 * 1024 + q.val) :
    (iblk2 (F := Ideal) V c 1 t : S64x1024.Idx → EReal) (ix2 k q) = (V c main_v65 : S64x8192.Idx → EReal) (ix2 k j) := by
  obtain ⟨-, -, e10, e11, -, -⟩ := idx_facts2 t
  unfold iblk2
  rw [View.read_apply]
  show V c main_v65 _ = V c main_v65 _
  congr 1
  funext a
  apply Fin.ext
  match a with
  | ⟨0, _⟩ => show win2_1.index t (0 : Fin 2) * 64 + 1 * k.val = k.val; rw [e10]; omega
  | ⟨1, _⟩ => show win2_1.index t (1 : Fin 2) * 1024 + 1 * q.val = j.val; rw [e11, hj]; omega

/-! ## What a point writes back -/

/-- What point `t` writes back is block `t` of the product of the two input arrays as the region finds them: the
    tile's entry `(p, q)` is the sum over `k` of row `1024·(t / 8) + p` of the first array times column
    `1024·(t % 8) + q` of the second, and the block sits in the result at exactly those rows and columns. -/
theorem flushed2_eq (c : Dev nD) (t : Fin cfg2.N) :
    (dat2 (F := Ideal) V c).flushed 2 t
      = ((cfg2.win 2).blk t).view.read (Elt Ideal) (prod2 (V c main_v64) (V c main_v65)) := by
  show (cfg2.win 2).cut (grid2.coords t) ((dat2 V c).after 2 t) = _
  rw [after2_2]
  unfold out2_2
  rw [View.canon_unit_zero zeros2]
  simp only [View.ld_unit_zero (S := S1024x64) zeros2, View.ld_unit_zero (S := S64x1024) zeros2]
  obtain ⟨-, -, -, -, e20, e21⟩ := idx_facts2 t
  funext y
  have hy0 : (y 0).val < 1024 := (y 0).isLt
  have hy1 : (y 1).val < 1024 := (y 1).isLt
  have ht : t.val < 64 := lt_of_lt_of_eq t.isLt (show cfg2.N = 64 from N_2)
  obtain ⟨p, hp⟩ : ∃ p : Fin 1024, p.val = (y 0).val := ⟨⟨_, hy0⟩, rfl⟩
  obtain ⟨q, hq⟩ : ∃ q : Fin 1024, q.val = (y 1).val := ⟨⟨_, hy1⟩, rfl⟩
  obtain ⟨r, hr⟩ : ∃ r : Fin 8192, r.val = t.val / 8 * 1024 + p.val := ⟨⟨_, by omega⟩, rfl⟩
  obtain ⟨j, hj⟩ : ∃ j : Fin 8192, j.val = t.val % 8 * 1024 + q.val := ⟨⟨_, by omega⟩, rfl⟩
  have hx : (cfg2.win 2).xinj (grid2.coords t) y = ix2 p q := by
    funext a; apply Fin.ext
    match a with
    | ⟨0, _⟩ => exact hp.symm
    | ⟨1, _⟩ => exact hq.symm
  have hi : (((cfg2.win 2).blk t).view.emb y : S8192x8192.Idx) = ix2 r j := by
    funext a; apply Fin.ext
    match a with
    | ⟨0, _⟩ => show win2_2.index t (0 : Fin 2) * 1024 + 1 * (y 0).val = r.val; rw [e20, hr, hp]; omega
    | ⟨1, _⟩ => show win2_2.index t (1 : Fin 2) * 1024 + 1 * (y 1).val = j.val; rw [e21, hj, hq]; omega
  show k2_pay1 (iblk2 V c 0 t) (iblk2 V c 1 t) ((cfg2.win 2).xinj (grid2.coords t) y)
    = prod2 (V c main_v64) (V c main_v65) (((cfg2.win 2).blk t).view.emb y)
  rw [hx, hi, prod2_apply]
  refine (pay2_apply (iblk2 V c 0 t) (iblk2 V c 1 t) p q).trans (Finset.sum_congr rfl fun k _ => ?_)
  rw [iblk2_0_apply V c t p k r hr, iblk2_1_apply V c t k q j hj]

/-! ## The tiles cover the result -/

/-- An entry of the result is in point `t`'s block iff each coordinate is in the block's range on its axis. -/
theorem mem_blk2 (t : Fin cfg2.N) (i : S8192x8192.Idx) :
    i ∈ ((cfg2.win 2).blk t).view.set ↔ ∀ a : Fin 2, win2_2.index t a * S1024x1024.size a ≤ (i a).val ∧ (i a).val < win2_2.index t a * S1024x1024.size a + S1024x1024.size a := by
  show i ∈ ((View.whole main_v66).slice (win2_2.rect t)).set ↔ _
  rw [View.set_slice_whole, Rect.mem_set_unit]
  exact Iff.rfl

/-- Every entry `(r, j)` of the result is in the block of the point with row block `r / 1024` and column block
    `j / 1024`, and every point writes its block back. -/
theorem cover2 (i : S8192x8192.Idx) :
    ∃ t : Fin cfg2.N, (cfg2.win 2).flush t = true ∧ i ∈ ((cfg2.win 2).blk t).view.set := by
  have hi0 : (i 0).val < 8192 := (i 0).isLt
  have hi1 : (i 1).val < 8192 := (i 1).isLt
  have hN : cfg2.N = 64 := N_2
  obtain ⟨t, ht⟩ : ∃ t : Fin cfg2.N, t.val = (i 0).val / 1024 * 8 + (i 1).val / 1024 := ⟨⟨_, by rw [hN]; omega⟩, rfl⟩
  obtain ⟨-, -, -, -, e20, e21⟩ := idx_facts2 t
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; rw [e20]; omega
  | ⟨1, _⟩ => show win2_2.index t (1 : Fin 2) * 1024 ≤ (i 1).val ∧ (i 1).val < win2_2.index t (1 : Fin 2) * 1024 + 1024; rw [e21]; omega

/-! ## The result array after the region -/

/-- The result array after the region's write-backs is the product of the two input arrays as the region found them. -/
theorem final2 (c : Dev nD) :
    (dat2 (F := Ideal) V c).arrAt 2 cfg2.N = prod2 (V c main_v64) (V c main_v65) :=
  (dat2 V c).arrAt_eq_of_cover 2 (prod2 (V c main_v64) (V c main_v65)) (fun t _ => flushed2_eq V c t) cover2

/-- Entry by entry, with each array named at its own index type (`a` the first input, `b` the second, `o` the result,
    each given with the equation that says which buffer it is): the result at `(r, j)` is `∑ k, a (r, k) · b (k, j)`. -/
theorem final2_apply (c : Dev nD) (a : S8192x64.Idx → EReal) (b : S64x8192.Idx → EReal) (o : S8192x8192.Idx → EReal)
    (ha : V c main_v64 = a) (hb : V c main_v65 = b) (ho : (dat2 (F := Ideal) V c).arrAt 2 cfg2.N = o) (r j : Fin 8192) :
    o (ix2 r j) = ∑ k : Fin 64, a (ix2 r k) * b (ix2 k j) := by
  subst ha hb ho
  exact (congrFun (final2 V c) (ix2 r j)).trans (prod2_apply _ _ r j)

end Cert.KernelIdeal.RegionValue

end
-- ==== Proof.Bridge2.lean ====
/-
  The second half of the kernel program's value: the two 64-column halves, the batch's latent rows, the result.

  The kernel program multiplies the hidden layer by the two 128×64 weight matrices SIDE BY SIDE and runs ONE
  message-passing step on the 128-column product; the reference multiplies by each matrix and runs a 64-column step on
  each product. Column c < 64 of the side-by-side product is column c of the first product and column 64 + c is column c
  of the second (a sum over k of a row entry times a weight, the weight read in the left or the right matrix), and a
  message-passing step treats every column by itself — entry (n, c) is a sum over the edges into n of the source
  row's entry in column c times the edge's weight. So the left and right halves of the kernel's table are the
  reference's two tables. The kernel then reads the batch's rows BEFORE rectifying, exponentiating, scaling the noise
  and adding, the reference after: reading rows is a re-indexing, which commutes with entrywise operations. The third
  region's output is the product of the batch's rows with their transpose, the reference's last `dot_general`.
-/
import proofs.«148251_j31490700214327_2_alg».proof.Proof.Bridge1
import proofs.«148251_j31490700214327_2_alg».proof.Proof.RegionValue2
import Idealize.ShloMosaic.Lib.ValueLayout
import Idealize.ShloMosaic.Lib.Pipeline.Value

noncomputable section

namespace Cert.Bridge

open Idealize.ShloMosaic Idealize.ShloMosaic.TcCoe Idealize.SL.Sem Idealize.ShloMosaic.ValueIdx
open Cert.KernelIdeal Cert.KernelIdeal.Gen
open Cert.KernelIdeal.HostValue (w23 spmm zb zbT)
open Cert.ReferenceIdeal.Read (val_main_v0 val_main_v17 val_main_v18 val_main_v35 val_main_v37 val_main_v54 val_main_v65
  val_main_v66 val_main_v67)

section Pure

variable (x0 : (⟨S50000x256, .f32⟩ : BufTy).Contents (Elt Ideal)) (x1 : (⟨S2x800000, .i32⟩ : BufTy).Contents (Elt Ideal))
  (x2 : (⟨S800000, .f32⟩ : BufTy).Contents (Elt Ideal)) (x3 : (⟨S50000x64, .f32⟩ : BufTy).Contents (Elt Ideal))
  (x4 : (⟨S8192, .i32⟩ : BufTy).Contents (Elt Ideal)) (x5 : (⟨S256x128, .f32⟩ : BufTy).Contents (Elt Ideal))
  (x6 x7 : (⟨S128x64, .f32⟩ : BufTy).Contents (Elt Ideal))

/-- An entry of the side-by-side weights in the left half is the first matrix's … -/
theorem w23_left (k : Fin 128) (c : Fin 64) (hc : c.val < 128) :
    w23 (F := Ideal) x6 x7 (ix2 k ⟨c.val, hc⟩) = x6 (ix2 k c) := by
  unfold Cert.KernelIdeal.HostValue.w23
  exact concatenate_pair_apply_left (t := S128x128) (s₁ := S128x64) (s₂ := S128x64) (1 : Fin 2) x6 x7
    concatenates_S128x64_S128x64_S128x128_d1 (ix2 k ⟨c.val, hc⟩) rfl (ix2 k c)
    (fun b => by match b with | ⟨0, _⟩ => rfl | ⟨1, _⟩ => rfl)

/-- … and in the right half the second matrix's. -/
theorem w23_right (k : Fin 128) (c : Fin 64) (hc : 64 + c.val < 128) :
    w23 (F := Ideal) x6 x7 (ix2 k ⟨64 + c.val, hc⟩) = x7 (ix2 k c) := by
  unfold Cert.KernelIdeal.HostValue.w23
  exact concatenate_pair_apply_right (t := S128x128) (s₁ := S128x64) (s₂ := S128x64) (1 : Fin 2) x6 x7
    concatenates_S128x64_S128x64_S128x128_d1 (ix2 k ⟨64 + c.val, hc⟩) rfl rfl (ix2 k c)
    (fun b hb => by match b with | ⟨0, _⟩ => rfl | ⟨1, _⟩ => exact absurd rfl hb)
    (Nat.add_comm c.val 64)

/-- Column c of the product with the side-by-side weights is column c of the product with the first matrix … -/
theorem prod1_left (H : (⟨S50000x128, .f32⟩ : BufTy).Contents (Elt Ideal)) (r : Fin 50000) (c : Fin 64) (hc : c.val < 128) :
    Cert.KernelIdeal.RegionValue.prod1 H (w23 (F := Ideal) x6 x7) (ix2 r ⟨c.val, hc⟩)
      = Host.dotGeneral (F := Ideal) (φ₁ := .f32) (φ₂ := .f32) Cert.ReferenceIdeal.dot_S50000x128_S128x64_S50000x64_1_0_0_1_n_n none H x6 (ix2 r c) := by
  rw [Cert.KernelIdeal.RegionValue.prod1_apply]
  refine Eq.trans ?_ (Cert.LibDotGeneralNN.dotGeneral_apply Cert.ReferenceIdeal.dot_S50000x128_S128x64_S50000x64_1_0_0_1_n_n
    rfl rfl rfl rfl rfl rfl none .single H x6 r c).symm
  exact Finset.sum_congr rfl fun k _ => by rw [w23_left]

/-- … and column 64 + c is column c of the product with the second. -/
theorem prod1_right (H : (⟨S50000x128, .f32⟩ : BufTy).Contents (Elt Ideal)) (r : Fin 50000) (c : Fin 64) (hc : 64 + c.val < 128) :
    Cert.KernelIdeal.RegionValue.prod1 H (w23 (F := Ideal) x6 x7) (ix2 r ⟨64 + c.val, hc⟩)
      = Host.dotGeneral (F := Ideal) (φ₁ := .f32) (φ₂ := .f32) Cert.ReferenceIdeal.dot_S50000x128_S128x64_S50000x64_1_0_0_1_n_n none H x7 (ix2 r c) := by
  rw [Cert.KernelIdeal.RegionValue.prod1_apply]
  refine Eq.trans ?_ (Cert.LibDotGeneralNN.dotGeneral_apply Cert.ReferenceIdeal.dot_S50000x128_S128x64_S50000x64_1_0_0_1_n_n
    rfl rfl rfl rfl rfl rfl none .single H x7 r c).symm
  exact Finset.sum_congr rfl fun k _ => by rw [w23_right]

/-- The left half of the kernel's second table is the reference's mean before its rectifier … -/
theorem mean_cols :
    extractStridedSlice S50000x64 ![0, 0]
        (spmm (F := Ideal) x1 x2 (Cert.KernelIdeal.RegionValue.prod1 (val_main_v17 (F := Ideal) x0 x1 x2 x5) (w23 (F := Ideal) x6 x7)))
        slices_S50000x128_S50000x64_0_0
      = val_main_v35 (F := Ideal) x0 x1 x2 x5 x6 := by
  funext i
  obtain ⟨n, c, rfl⟩ : ∃ (n : Fin 50000) (c : Fin 64), i = ix2 n c := ⟨_, _, eq_ix2 i⟩
  rw [Cert.ReferenceIdeal.RefValue.mean_eq]
  refine (slice2_axis1_apply 0 _ slices_S50000x128_S50000x64_0_0 n c ⟨c.val, by omega⟩ (by simp)).trans ?_
  refine (Cert.SpmmEntry.kernel_spmm_apply x1 x2 _ n ⟨c.val, by omega⟩).trans ?_
  refine Eq.trans ?_ (Cert.SpmmEntry.ref_spmm64_apply x1 x2 _ n c).symm
  rw [Cert.SpmmEntry.srcCol_eq, Cert.SpmmEntry.dstCol_eq]
  exact congrArg (fun X => Cert.SpmmEntry.stepAt _ _ _ X n) (funext fun r => prod1_left x6 x7 _ r c _)

/-- … and the right half its log-deviation before its rectifier. -/
theorem logstd_cols :
    extractStridedSlice S50000x64 ![0, 64]
        (spmm (F := Ideal) x1 x2 (Cert.KernelIdeal.RegionValue.prod1 (val_main_v17 (F := Ideal) x0 x1 x2 x5) (w23 (F := Ideal) x6 x7)))
        slices_S50000x128_S50000x64_0_64
      = val_main_v54 (F := Ideal) x0 x1 x2 x5 x7 := by
  funext i
  obtain ⟨n, c, rfl⟩ : ∃ (n : Fin 50000) (c : Fin 64), i = ix2 n c := ⟨_, _, eq_ix2 i⟩
  rw [Cert.ReferenceIdeal.RefValue.logstd_eq]
  refine (slice2_axis1_apply 64 _ slices_S50000x128_S50000x64_0_64 n c ⟨64 + c.val, by omega⟩ rfl).trans ?_
  refine (Cert.SpmmEntry.kernel_spmm_apply x1 x2 _ n ⟨64 + c.val, by omega⟩).trans ?_
  refine Eq.trans ?_ (Cert.SpmmEntry.ref_spmm64_apply x1 x2 _ n c).symm
  rw [Cert.SpmmEntry.srcCol_eq, Cert.SpmmEntry.dstCol_eq]
  exact congrArg (fun X => Cert.SpmmEntry.stepAt _ _ _ X n) (funext fun r => prod1_right x6 x7 _ r c _)

/-- The batch's latent rows, formed by the kernel from rows read first, are the reference's rows read last. -/
theorem latent_rows :
    zb (F := Ideal) x3 x4 (spmm (F := Ideal) x1 x2
        (Cert.KernelIdeal.RegionValue.prod1 (val_main_v17 (F := Ideal) x0 x1 x2 x5) (w23 (F := Ideal) x6 x7)))
      = val_main_v65 (F := Ideal) x0 x1 x2 x3 x4 x5 x6 x7 := by
  rw [Cert.ReferenceIdeal.RefValue.batch_eq]
  unfold Cert.KernelIdeal.HostValue.zb
  rw [mean_cols, logstd_cols]
  rfl

/-- A product of an 8192×64 by a 64×8192 array, entry by entry, is the host's `dot_general` of the two. -/
theorem prod2_eq_dot (a : (⟨S8192x64, .f32⟩ : BufTy).Contents (Elt Ideal)) (b : (⟨S64x8192, .f32⟩ : BufTy).Contents (Elt Ideal)) :
    Cert.KernelIdeal.RegionValue.prod2 a b
      = Host.dotGeneral (F := Ideal) (φ₁ := .f32) (φ₂ := .f32) Cert.ReferenceIdeal.dot_S8192x64_S64x8192_S8192x8192_1_0_0_1_n_n none a b := by
  funext i
  obtain ⟨r, j, rfl⟩ : ∃ (r : Fin 8192) (j : Fin 8192), i = ix2 r j := ⟨_, _, eq_ix2 i⟩
  rw [Cert.KernelIdeal.RegionValue.prod2_apply]
  exact (Cert.LibDotGeneralNN.dotGeneral_apply Cert.ReferenceIdeal.dot_S8192x64_S64x8192_S8192x8192_1_0_0_1_n_n
    rfl rfl rfl rfl rfl rfl none .single a b r j).symm

end Pure

variable (m : (ℓ : Loc nD τ sig) → Buf (Elt Ideal) ℓ) (ρ : Dev nD → PrngReg) (c : Dev nD)

/-- The third region's left operand is the reference's batch rows … -/
theorem batch_rows : W8 m ρ c (Proc.devRef .tc main_v64)
    = val_main_v65 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (Cert.KernelIdeal.HostValue.after2_v64 (F := Ideal) (W3 m ρ c)).trans ?_
  rw [W3_arg1, W3_arg2, W3_arg3, W3_arg4, second_product]
  exact latent_rows _ _ _ _ _ _ _ _

/-- … and its right operand their transpose. -/
theorem batch_cols : W8 m ρ c (Proc.devRef .tc main_v65)
    = val_main_v66 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (Cert.KernelIdeal.HostValue.after2_v65 (F := Ideal) (W3 m ρ c)).trans ?_
  rw [W3_arg1, W3_arg2, W3_arg3, W3_arg4, second_product, latent_rows]
  rfl

/-- THE KERNEL PROGRAM'S VALUE: at the last boundary its result array holds the reference's result term of the launch
    memory's argument arrays. -/
theorem result : W9 m ρ c (Proc.devRef .tc main_v66)
    = val_main_v67 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine ((W9_arr m ρ c 2).trans (Cert.KernelIdeal.RegionValue.final2 (V8 m ρ) c)).trans ?_
  rw [show V8 m ρ c main_v64 = W8 m ρ c (Proc.devRef .tc main_v64) from rfl,
    show V8 m ρ c main_v65 = W8 m ρ c (Proc.devRef .tc main_v65) from rfl, batch_rows, batch_cols]
  exact prod2_eq_dot _ _

end Cert.Bridge

end
-- ==== Proof.lean ====
/- The proof of `Cert.Claim`: the kernel program and its jnp reference compute one function on the extended reals.

   The program is a two-layer graph convolution followed by an inner-product decoder on a batch of nodes:
   hidden = A·(X·W1), where A·T adds into row dst(e) of a table of zeros the row src(e) of T times the weight of edge e;
   mean = relu(A·(hidden·W2)), logstd = relu(A·(hidden·W3)); Z = noise · exp(logstd) + mean; Zb = the batch's rows of Z;
   the result is Zb · Zbᵀ. The kernel program does the three dense products in tiled regions, multiplies the hidden layer by
   W2 and W3 side by side in ONE product followed by ONE 128-column message-passing step, and reads the batch's rows
   before the entrywise operations instead of after. The two agree entry by entry by re-indexing alone: a tiled product
   into a zero accumulator and the host's `dot_general` are the same sum over k; a column of the side-by-side product is
   a column of one of the two products; a message-passing step treats each column by itself; reading rows commutes with
   entrywise operations. No distributive law and no cancellation is used, so the finiteness of the inputs is not
   needed for the values, only stated.

   The frames of the two kernel programs are their generated frame certificates; the reference's frame is its generated
   run with the result dropped; the ideal pass rewrote nothing, so `preserves` asks nothing. -/
import proofs.«148251_j31490700214327_2_alg».proof.Defs
import proofs.«148251_j31490700214327_2_alg».proof.Proof.Gen.Kernel
import proofs.«148251_j31490700214327_2_alg».proof.Proof.Gen.Kernel.Skeleton
import proofs.«148251_j31490700214327_2_alg».proof.Proof.Gen.Kernel.Launch
import proofs.«148251_j31490700214327_2_alg».proof.Proof.Gen.Kernel.Points
import proofs.«148251_j31490700214327_2_alg».proof.Proof.Gen.Kernel.Frame
import proofs.«148251_j31490700214327_2_alg».proof.Proof.Gen.KernelIdeal
import proofs.«148251_j31490700214327_2_alg».proof.Proof.Gen.KernelIdeal.Skeleton
import proofs.«148251_j31490700214327_2_alg».proof.Proof.Gen.KernelIdeal.Launch
import proofs.«148251_j31490700214327_2_alg».proof.Proof.Gen.KernelIdeal.Points
import proofs.«148251_j31490700214327_2_alg».proof.Proof.Gen.KernelIdeal.Frame
import proofs.«148251_j31490700214327_2_alg».proof.Proof.Gen.ReferenceIdeal
import proofs.«148251_j31490700214327_2_alg».proof.Proof.Gen.Pre_finite_inputs
import proofs.«148251_j31490700214327_2_alg».proof.Proof.Gen.ReferenceIdeal.Run
import proofs.«148251_j31490700214327_2_alg».proof.Proof.Gen.ReferenceIdeal.Read
import proofs.«148251_j31490700214327_2_alg».proof.Proof.KernelRun
import proofs.«148251_j31490700214327_2_alg».proof.Proof.Bridge2
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization is the program's own text read on the extended reals: nothing was rewritten. -/
theorem preserves : Cert.preserves_Kernel_KernelIdeal := trivial

/-- From memories that agree on the eight arguments, both programs end with the reference's result term of those
    arguments in their result arrays, and with the arguments as they were. -/
theorem algebraic : Cert.algebraic_KernelIdeal_ReferenceIdeal := by
  intro m ρ m' ρ' _ hagree
  refine ⟨fun c => Cert.ReferenceIdeal.Read.val_main_v67 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono (fun _ h c => ⟨(h c).1.trans (Cert.Bridge.result m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v67_eq, (hagree c).1, (hagree c).2.1, (hagree c).2.2.1, (hagree c).2.2.2.1,
      (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
